-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x7 : Shape := ⟨2, ![200000, 7]⟩
abbrev S2x6400000 : Shape := ⟨2, ![2, 6400000]⟩
abbrev S200000 : Shape := ⟨1, ![200000]⟩
abbrev S7x8 : Shape := ⟨2, ![7, 8]⟩
abbrev S8 : Shape := ⟨1, ![8]⟩
abbrev S8x8 : Shape := ⟨2, ![8, 8]⟩
abbrev S8x3 : Shape := ⟨2, ![8, 3]⟩
abbrev S3 : Shape := ⟨1, ![3]⟩
abbrev S_ : Shape := ⟨0, ![]⟩

class Facts : Prop where
  bcast_S_S200000x7 : S_.BroadcastsInDim S200000x7 (![] : Fin 0 → Fin S200000x7.rank)
  reducesTo_S200000x7_S_d0_1 : S200000x7.ReducesTo [0, 1] S_
  h_S_ : 0 < S_.numel
  bcast_S_S7x8 : S_.BroadcastsInDim S7x8 (![] : Fin 0 → Fin S7x8.rank)
  reducesTo_S7x8_S_d0_1 : S7x8.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  bcast_S_S8x3 : S_.BroadcastsInDim S8x3 (![] : Fin 0 → Fin S8x3.rank)
  reducesTo_S8x3_S_d0_1 : S8x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg13 : FVec F S3 .f32) (main_v48 : IVec S_ 1) (main_v49 : FVec F S8x3 .f32) (main_v50 : FVec F S8x3 .f32) : IVec S_ 1 :=
  let main_v51 : IVec S8x3 1 := cmpf .olt main_v49 main_v50
  let main_c_19 : IVec S_ 1 := constantI S_ 1 1#1
  let main_v52 : IVec S_ 1 := (fun x v => Host.reduce IntOp.andi x v reducesTo_S8x3_S_d0_1 h_S_) main_v51 main_c_19
  let main_v53 : IVec S_ 1 := andi main_v48 main_v52
  let main_v54 : FVec F S3 .f32 := Host.absf main_arg13
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  main_v58

def fn_part2 {F : FTy → Type} [FloatOps F] (main_arg9 : FVec F S8x8 .f32) (main_arg10 : FVec F S8 .f32) (main_arg11 : FVec F S8x8 .f32) (main_arg12 : FVec F S8x3 .f32) (main_arg13 : FVec F S3 .f32) (main_v33 : IVec S_ 1) : IVec S_ 1 :=
  let main_v34 : FVec F S8x8 .f32 := Host.absf main_arg9
  let main_cst_12 : FVec F S_ .f32 := constant S_ .f32 0x7F800000#32
  let main_v35 : FVec F S8x8 .f32 := broadcastInDim S8x8 ![] bcast_S_S8x8 main_cst_12
  let main_v36 : IVec S8x8 1 := cmpf .olt main_v34 main_v35
  let main_c_13 : IVec S_ 1 := constantI S_ 1 1#1
  let main_v37 : IVec S_ 1 := (fun x v => Host.reduce IntOp.andi x v reducesTo_S8x8_S_d0_1 h_S_) main_v36 main_c_13
  let main_v38 : IVec S_ 1 := andi main_v33 main_v37
  let main_v39 : FVec F S8 .f32 := Host.absf main_arg10
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8x8 .f32 := Host.absf main_arg11
  let main_cst_16 : FVec F S_ .f32 := constant S_ .f32 0x7F800000#32
  let main_v45 : FVec F S8x8 .f32 := broadcastInDim S8x8 ![] bcast_S_S8x8 main_cst_16
  let main_v46 : IVec S8x8 1 := cmpf .olt main_v44 main_v45
  let main_c_17 : IVec S_ 1 := constantI S_ 1 1#1
  let main_v47 : IVec S_ 1 := (fun x v => Host.reduce IntOp.andi x v reducesTo_S8x8_S_d0_1 h_S_) main_v46 main_c_17
  let main_v48 : IVec S_ 1 := andi main_v43 main_v47
  let main_v49 : FVec F S8x3 .f32 := Host.absf main_arg12
  let main_cst_18 : FVec F S_ .f32 := constant S_ .f32 0x7F800000#32
  let main_v50 : FVec F S8x3 .f32 := broadcastInDim S8x3 ![] bcast_S_S8x3 main_cst_18
  fn_part3 (F := F) main_arg13 main_v48 main_v49 main_v50

def fn_part1 {F : FTy → Type} [FloatOps F] (main_arg6 : FVec F S8x8 .f32) (main_arg7 : FVec F S8 .f32) (main_arg8 : FVec F S8x8 .f32) (main_arg9 : FVec F S8x8 .f32) (main_arg10 : FVec F S8 .f32) (main_arg11 : FVec F S8x8 .f32) (main_arg12 : FVec F S8x3 .f32) (main_arg13 : FVec F S3 .f32) (main_v13 : IVec S_ 1) (main_v16 : IVec S7x8 1) : IVec S_ 1 :=
  let main_c_5 : IVec S_ 1 := constantI S_ 1 1#1
  let main_v17 : IVec S_ 1 := (fun x v => Host.reduce IntOp.andi x v reducesTo_S7x8_S_d0_1 h_S_) main_v16 main_c_5
  let main_v18 : IVec S_ 1 := andi main_v13 main_v17
  let main_v19 : FVec F S8x8 .f32 := Host.absf main_arg6
  let main_cst_6 : FVec F S_ .f32 := constant S_ .f32 0x7F800000#32
  let main_v20 : FVec F S8x8 .f32 := broadcastInDim S8x8 ![] bcast_S_S8x8 main_cst_6
  let main_v21 : IVec S8x8 1 := cmpf .olt main_v19 main_v20
  let main_c_7 : IVec S_ 1 := constantI S_ 1 1#1
  let main_v22 : IVec S_ 1 := (fun x v => Host.reduce IntOp.andi x v reducesTo_S8x8_S_d0_1 h_S_) main_v21 main_c_7
  let main_v23 : IVec S_ 1 := andi main_v18 main_v22
  let main_v24 : FVec F S8 .f32 := Host.absf main_arg7
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S8x8 .f32 := Host.absf main_arg8
  let main_cst_10 : FVec F S_ .f32 := constant S_ .f32 0x7F800000#32
  let main_v30 : FVec F S8x8 .f32 := broadcastInDim S8x8 ![] bcast_S_S8x8 main_cst_10
  let main_v31 : IVec S8x8 1 := cmpf .olt main_v29 main_v30
  let main_c_11 : IVec S_ 1 := constantI S_ 1 1#1
  let main_v32 : IVec S_ 1 := (fun x v => Host.reduce IntOp.andi x v reducesTo_S8x8_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S200000x7 .f32) (main_arg1 : IVec S2x6400000 32) (main_arg2 : IVec S200000 32) (main_arg3 : FVec F S7x8 .f32) (main_arg4 : FVec F S8 .f32) (main_arg5 : FVec F S7x8 .f32) (main_arg6 : FVec F S8x8 .f32) (main_arg7 : FVec F S8 .f32) (main_arg8 : FVec F S8x8 .f32) (main_arg9 : FVec F S8x8 .f32) (main_arg10 : FVec F S8 .f32) (main_arg11 : FVec F S8x8 .f32) (main_arg12 : FVec F S8x3 .f32) (main_arg13 : FVec F S3 .f32) : IVec S_ 1 :=
  let main_v0 : FVec F S200000x7 .f32 := Host.absf main_arg0
  let main_cst : FVec F S_ .f32 := constant S_ .f32 0x7F800000#32
  let main_v1 : FVec F S200000x7 .f32 := broadcastInDim S200000x7 ![] bcast_S_S200000x7 main_cst
  let main_v2 : IVec S200000x7 1 := cmpf .olt main_v0 main_v1
  let main_c : IVec S_ 1 := constantI S_ 1 1#1
  let main_v3 : IVec S_ 1 := (fun x v => Host.reduce IntOp.andi x v reducesTo_S200000x7_S_d0_1 h_S_) main_v2 main_c
  let main_v4 : FVec F S7x8 .f32 := Host.absf main_arg3
  let main_cst_0 : FVec F S_ .f32 := constant S_ .f32 0x7F800000#32
  let main_v5 : FVec F S7x8 .f32 := broadcastInDim S7x8 ![] bcast_S_S7x8 main_cst_0
  let main_v6 : IVec S7x8 1 := cmpf .olt main_v4 main_v5
  let main_c_1 : IVec S_ 1 := constantI S_ 1 1#1
  let main_v7 : IVec S_ 1 := (fun x v => Host.reduce IntOp.andi x v reducesTo_S7x8_S_d0_1 h_S_) main_v6 main_c_1
  let main_v8 : IVec S_ 1 := andi main_v3 main_v7
  let main_v9 : FVec F S8 .f32 := Host.absf main_arg4
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S7x8 .f32 := Host.absf main_arg5
  let main_cst_4 : FVec F S_ .f32 := constant S_ .f32 0x7F800000#32
  let main_v15 : FVec F S7x8 .f32 := broadcastInDim S7x8 ![] bcast_S_S7x8 main_cst_4
  let main_v16 : IVec S7x8 1 := cmpf .olt main_v14 main_v15
  fn_part1 (F := F) main_arg6 main_arg7 main_arg8 main_arg9 main_arg10 main_arg11 main_arg12 main_arg13 main_v13 main_v16
-- ==== Kernel.lean ====
abbrev S200000x7 : Shape := ⟨2, ![200000, 7]⟩
abbrev S2x6400000 : Shape := ⟨2, ![2, 6400000]⟩
abbrev S200000 : Shape := ⟨1, ![200000]⟩
abbrev S7x8 : Shape := ⟨2, ![7, 8]⟩
abbrev S8 : Shape := ⟨1, ![8]⟩
abbrev S8x8 : Shape := ⟨2, ![8, 8]⟩
abbrev S8x3 : Shape := ⟨2, ![8, 3]⟩
abbrev S3 : Shape := ⟨1, ![3]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x7 : Shape := ⟨2, ![6400000, 7]⟩
abbrev S1x8 : Shape := ⟨2, ![1, 8]⟩
abbrev S200000x8 : Shape := ⟨2, ![200000, 8]⟩
abbrev S4000x7 : Shape := ⟨2, ![4000, 7]⟩
abbrev S4000x8 : Shape := ⟨2, ![4000, 8]⟩
abbrev S6400000x8 : Shape := ⟨2, ![6400000, 8]⟩
abbrev S1000x8 : Shape := ⟨2, ![1000, 8]⟩
abbrev S200000x1 : Shape := ⟨2, ![200000, 1]⟩
abbrev S1000 : Shape := ⟨1, ![1000]⟩
abbrev S1000x1 : Shape := ⟨2, ![1000, 1]⟩
abbrev S1000x3 : Shape := ⟨2, ![1000, 3]⟩
abbrev S1x3 : Shape := ⟨2, ![1, 3]⟩

abbrev nBuf : Space → Nat
  | .hbm => 83
  | .vmem => 27
  | .smem => 0
  | _ => 0

abbrev bufTy : (tb : Table) → Fin (tcTables nBuf tb) → BufTy
  | .hbm, ⟨0, _⟩ => ⟨S200000x7, .f32⟩
  | .hbm, ⟨1, _⟩ => ⟨S2x6400000, .i32⟩
  | .hbm, ⟨2, _⟩ => ⟨S200000, .i32⟩
  | .hbm, ⟨3, _⟩ => ⟨S7x8, .f32⟩
  | .hbm, ⟨4, _⟩ => ⟨S8, .f32⟩
  | .hbm, ⟨5, _⟩ => ⟨S7x8, .f32⟩
  | .hbm, ⟨6, _⟩ => ⟨S8x8, .f32⟩
  | .hbm, ⟨7, _⟩ => ⟨S8, .f32⟩
  | .hbm, ⟨8, _⟩ => ⟨S8x8, .f32⟩
  | .hbm, ⟨9, _⟩ => ⟨S8x8, .f32⟩
  | .hbm, ⟨10, _⟩ => ⟨S8, .f32⟩
  | .hbm, ⟨11, _⟩ => ⟨S8x8, .f32⟩
  | .hbm, ⟨12, _⟩ => ⟨S8x3, .f32⟩
  | .hbm, ⟨13, _⟩ => ⟨S3, .f32⟩
  | .hbm, ⟨14, _⟩ => ⟨S1x6400000, .i32⟩
  | .hbm, ⟨15, _⟩ => ⟨S6400000, .i32⟩
  | .hbm, ⟨16, _⟩ => ⟨S1x6400000, .i32⟩
  | .hbm, ⟨17, _⟩ => ⟨S6400000, .i32⟩
  | .hbm, ⟨18, _⟩ => ⟨S_, .i32⟩
  | .hbm, ⟨19, _⟩ => ⟨S6400000, .i32⟩
  | .hbm, ⟨20, _⟩ => ⟨S6400000, .i1⟩
  | .hbm, ⟨21, _⟩ => ⟨S_, .i32⟩
  | .hbm, ⟨22, _⟩ => ⟨S6400000, .i32⟩
  | .hbm, ⟨23, _⟩ => ⟨S6400000, .i32⟩
  | .hbm, ⟨24, _⟩ => ⟨S6400000, .i32⟩
  | .hbm, ⟨25, _⟩ => ⟨S6400000x1, .i32⟩
  | .hbm, ⟨26, _⟩ => ⟨S6400000x7, .f32⟩
  | .hbm, ⟨27, _⟩ => ⟨S_, .f32⟩
  | .hbm, ⟨28, _⟩ => ⟨S200000x7, .f32⟩
  | .hbm, ⟨29, _⟩ => ⟨S6400000x1, .i32⟩
  | .hbm, ⟨30, _⟩ => ⟨S200000x7, .f32⟩
  | .hbm, ⟨31, _⟩ => ⟨S1x8, .f32⟩
  | .hbm, ⟨32, _⟩ => ⟨S200000x8, .f32⟩
  | .hbm, ⟨33, _⟩ => ⟨S_, .i32⟩
  | .hbm, ⟨34, _⟩ => ⟨S6400000, .i32⟩
  | .hbm, ⟨35, _⟩ => ⟨S6400000, .i1⟩
  | .hbm, ⟨36, _⟩ => ⟨S_, .i32⟩
  | .hbm, ⟨37, _⟩ => ⟨S6400000, .i32⟩
  | .hbm, ⟨38, _⟩ => ⟨S6400000, .i32⟩
  | .hbm, ⟨39, _⟩ => ⟨S6400000, .i32⟩
  | .hbm, ⟨40, _⟩ => ⟨S6400000x1, .i32⟩
  | .hbm, ⟨41, _⟩ => ⟨S6400000x8, .f32⟩
  | .hbm, ⟨42, _⟩ => ⟨S_, .f32⟩
  | .hbm, ⟨43, _⟩ => ⟨S200000x8, .f32⟩
  | .hbm, ⟨44, _⟩ => ⟨S6400000x1, .i32⟩
  | .hbm, ⟨45, _⟩ => ⟨S200000x8, .f32⟩
  | .hbm, ⟨46, _⟩ => ⟨S1x8, .f32⟩
  | .hbm, ⟨47, _⟩ => ⟨S200000x8, .f32⟩
  | .hbm, ⟨48, _⟩ => ⟨S_, .i32⟩
  | .hbm, ⟨49, _⟩ => ⟨S6400000, .i32⟩
  | .hbm, ⟨50, _⟩ => ⟨S6400000, .i1⟩
  | .hbm, ⟨51, _⟩ => ⟨S_, .i32⟩
  | .hbm, ⟨52, _⟩ => ⟨S6400000, .i32⟩
  | .hbm, ⟨53, _⟩ => ⟨S6400000, .i32⟩
  | .hbm, ⟨54, _⟩ => ⟨S6400000, .i32⟩
  | .hbm, ⟨55, _⟩ => ⟨S6400000x1, .i32⟩
  | .hbm, ⟨56, _⟩ => ⟨S6400000x8, .f32⟩
  | .hbm, ⟨57, _⟩ => ⟨S_, .f32⟩
  | .hbm, ⟨58, _⟩ => ⟨S200000x8, .f32⟩
  | .hbm, ⟨59, _⟩ => ⟨S6400000x1, .i32⟩
  | .hbm, ⟨60, _⟩ => ⟨S200000x8, .f32⟩
  | .hbm, ⟨61, _⟩ => ⟨S1x8, .f32⟩
  | .hbm, ⟨62, _⟩ => ⟨S200000x8, .f32⟩
  | .hbm, ⟨63, _⟩ => ⟨S_, .f32⟩
  | .hbm, ⟨64, _⟩ => ⟨S1000x8, .f32⟩
  | .hbm, ⟨65, _⟩ => ⟨S200000x1, .i32⟩
  | .hbm, ⟨66, _⟩ => ⟨S1000x8, .f32⟩
  | .hbm, ⟨67, _⟩ => ⟨S_, .f32⟩
  | .hbm, ⟨68, _⟩ => ⟨S200000, .f32⟩
  | .hbm, ⟨69, _⟩ => ⟨S_, .f32⟩
  | .hbm, ⟨70, _⟩ => ⟨S1000, .f32⟩
  | .hbm, ⟨71, _⟩ => ⟨S200000x1, .i32⟩
  | .hbm, ⟨72, _⟩ => ⟨S1000, .f32⟩
  | .hbm, ⟨73, _⟩ => ⟨S_, .f32⟩
  | .hbm, ⟨74, _⟩ => ⟨S1000, .f32⟩
  | .hbm, ⟨75, _⟩ => ⟨S1000, .f32⟩
  | .hbm, ⟨76, _⟩ => ⟨S1000x1, .f32⟩
  | .hbm, ⟨77, _⟩ => ⟨S1000x8, .f32⟩
  | .hbm, ⟨78, _⟩ => ⟨S1000x8, .f32⟩
  | .hbm, ⟨79, _⟩ => ⟨S1000x3, .f32⟩
  | .hbm, ⟨80, _⟩ => ⟨S1x3, .f32⟩
  | .hbm, ⟨81, _⟩ => ⟨S1000x3, .f32⟩
  | .hbm, ⟨82, _⟩ => ⟨S1000x3, .f32⟩
  | .local _ .vmem, ⟨0, _⟩ => ⟨S4000x7, .f32⟩
  | .local _ .vmem, ⟨1, _⟩ => ⟨S4000x7, .f32⟩
  | .local _ .vmem, ⟨2, _⟩ => ⟨S4000x7, .f32⟩
  | .local _ .vmem, ⟨3, _⟩ => ⟨S4000x7, .f32⟩
  | .local _ .vmem, ⟨4, _⟩ => ⟨S7x8, .f32⟩
  | .local _ .vmem, ⟨5, _⟩ => ⟨S1x8, .f32⟩
  | .local _ .vmem, ⟨6, _⟩ => ⟨S7x8, .f32⟩
  | .local _ .vmem, ⟨7, _⟩ => ⟨S4000x8, .f32⟩
  | .local _ .vmem, ⟨8, _⟩ => ⟨S4000x8, .f32⟩
  | .local _ .vmem, ⟨9, _⟩ => ⟨S4000x8, .f32⟩
  | .local _ .vmem, ⟨10, _⟩ => ⟨S4000x8, .f32⟩
  | .local _ .vmem, ⟨11, _⟩ => ⟨S4000x8, .f32⟩
  | .local _ .vmem, ⟨12, _⟩ => ⟨S4000x8, .f32⟩
  | .local _ .vmem, ⟨13, _⟩ => ⟨S8x8, .f32⟩
  | .local _ .vmem, ⟨14, _⟩ => ⟨S1x8, .f32⟩
  | .local _ .vmem, ⟨15, _⟩ => ⟨S8x8, .f32⟩
  | .local _ .vmem, ⟨16, _⟩ => ⟨S4000x8, .f32⟩
  | .local _ .vmem, ⟨17, _⟩ => ⟨S4000x8, .f32⟩
  | .local _ .vmem, ⟨18, _⟩ => ⟨S4000x8, .f32⟩
  | .local _ .vmem, ⟨19, _⟩ => ⟨S4000x8, .f32⟩
  | .local _ .vmem, ⟨20, _⟩ => ⟨S4000x8, .f32⟩
  | .local _ .vmem, ⟨21, _⟩ => ⟨S4000x8, .f32⟩
  | .local _ .vmem, ⟨22, _⟩ => ⟨S8x8, .f32⟩
  | .local _ .vmem, ⟨23, _⟩ => ⟨S1x8, .f32⟩
  | .local _ .vmem, ⟨24, _⟩ => ⟨S8x8, .f32⟩
  | .local _ .vmem, ⟨25, _⟩ => ⟨S4000x8, .f32⟩
  | .local _ .vmem, ⟨26, _⟩ => ⟨S4000x8, .f32⟩
  | _, _ => ⟨S200000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_1 : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x8 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S200000x7 : S_.BroadcastsInDim S200000x7 (![] : Fin 0 → Fin S200000x7.rank)
  shapeCasts_S8_S1x8 : S8.ShapeCasts S1x8
  inb_S4000x7_S4000x7_0_0 : ∀ a, (![0, 0] : Fin 2 → Nat) a + S4000x7.size a ≤ S4000x7.size a
  h_S4000x7 : 0 < S4000x7.numel
  shapeCasts_S4000x7_S4000x7 : S4000x7.ShapeCasts S4000x7
  bitsLt_bf16_f32 : FTy.bits .bf16 < FTy.bits .f32
  inb_S7x8_S7x8_0_0 : ∀ a, (![0, 0] : Fin 2 → Nat) a + S7x8.size a ≤ S7x8.size a
  h_S7x8 : 0 < S7x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S4000x8 : S1x8.Broadcasts S4000x8
  inb_S4000x8_S4000x8_0_0 : ∀ a, (![0, 0] : Fin 2 → Nat) a + S4000x8.size a ≤ S4000x8.size a
  h_S4000x8 : 0 < S4000x8.numel
  bcast_S_S200000x8 : S_.BroadcastsInDim S200000x8 (![] : Fin 0 → Fin S200000x8.rank)
  shapeCasts_S4000x8_S4000x8 : S4000x8.ShapeCasts S4000x8
  inb_S8x8_S8x8_0_0 : ∀ a, (![0, 0] : Fin 2 → Nat) a + S8x8.size a ≤ S8x8.size a
  h_S8x8 : 0 < S8x8.numel
  bcast_S_S1000x8 : S_.BroadcastsInDim S1000x8 (![] : Fin 0 → Fin S1000x8.rank)
  bcast_S200000_S200000x1_0 : S200000.BroadcastsInDim S200000x1 (![0] : Fin 1 → Fin S200000x1.rank)
  bcast_S_S200000 : S_.BroadcastsInDim S200000 (![] : Fin 0 → Fin S200000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x8_0_1 : S1000x1.BroadcastsInDim S1000x8 (![0, 1] : Fin 2 → Fin S1000x8.rank)
  bcast_S3_S1x3_1 : S3.BroadcastsInDim S1x3 (![1] : Fin 1 → Fin S1x3.rank)
  bcast_S1x3_S1000x3_0_1 : S1x3.BroadcastsInDim S1000x3 (![0, 1] : Fin 2 → Fin S1000x3.rank)
  gather_S200000x7_S6400000x1_S6400000x7_1_0_n_n_0_1_17_wf : GatherDims.WF S200000x7 S6400000x1 S6400000x7 [1] [0] [] [0] [] 1 ![1, 7]
  scatter_S200000x7_S6400000x1_S6400000x7_1_0_0_1_wf : ScatterDims.WF S200000x7 S6400000x1 S6400000x7 [1] [0] [0] 1
  dot_S4000x7_S7x8_S4000x8_1_0_0_1_n_n_wf : DotDims.WF S4000x7 S7x8 S4000x8 [1] [0] [0] [1] [] []
  gather_S200000x8_S6400000x1_S6400000x8_1_0_n_n_0_1_18_wf : GatherDims.WF S200000x8 S6400000x1 S6400000x8 [1] [0] [] [0] [] 1 ![1, 8]
  scatter_S200000x8_S6400000x1_S6400000x8_1_0_0_1_wf : ScatterDims.WF S200000x8 S6400000x1 S6400000x8 [1] [0] [0] 1
  dot_S4000x8_S8x8_S4000x8_1_0_0_1_n_n_wf : DotDims.WF S4000x8 S8x8 S4000x8 [1] [0] [0] [1] [] []
  scatter_S1000x8_S200000x1_S200000x8_1_0_0_1_wf : ScatterDims.WF S1000x8 S200000x1 S200000x8 [1] [0] [0] 1
  scatter_S1000_S200000x1_S200000_n_0_0_1_wf : ScatterDims.WF S1000 S200000x1 S200000 [] [0] [0] 1
  dot_S1000x8_S8x3_S1000x3_1_0_0_1_n_n_wf : DotDims.WF S1000x8 S8x3 S1000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x7.size a ≤ S200000x7.size a
  hwx0_0 : ∀ i : grid0.Coords, EltTy.bits .f32 = 32 ∨ (Rect.block (s := S200000x7) S4000x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x7.size a ≤ S200000x7.size a
  hwx0_1 : ∀ i : grid0.Coords, EltTy.bits .f32 = 32 ∨ (Rect.block (s := S200000x7) S4000x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x8.size a ≤ S7x8.size a
  hwx0_2 : ∀ i : grid0.Coords, EltTy.bits .f32 = 32 ∨ (Rect.block (s := S7x8) S7x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8.size a ≤ S1x8.size a
  hwx0_3 : ∀ i : grid0.Coords, EltTy.bits .f32 = 32 ∨ (Rect.block (s := S1x8) S1x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S7x8.size a ≤ S7x8.size a
  hwx0_4 : ∀ i : grid0.Coords, EltTy.bits .f32 = 32 ∨ (Rect.block (s := S7x8) S7x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x8.size a ≤ S200000x8.size a
  hwx0_5 : ∀ i : grid0.Coords, EltTy.bits .f32 = 32 ∨ (Rect.block (s := S200000x8) S4000x8.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x8.size a ≤ S200000x8.size a
  hwx1_0 : ∀ i : grid1.Coords, EltTy.bits .f32 = 32 ∨ (Rect.block (s := S200000x8) S4000x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x8.size a ≤ S200000x8.size a
  hwx1_1 : ∀ i : grid1.Coords, EltTy.bits .f32 = 32 ∨ (Rect.block (s := S200000x8) S4000x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x8.size a ≤ S8x8.size a
  hwx1_2 : ∀ i : grid1.Coords, EltTy.bits .f32 = 32 ∨ (Rect.block (s := S8x8) S8x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8.size a ≤ S1x8.size a
  hwx1_3 : ∀ i : grid1.Coords, EltTy.bits .f32 = 32 ∨ (Rect.block (s := S1x8) S1x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x8.size a ≤ S8x8.size a
  hwx1_4 : ∀ i : grid1.Coords, EltTy.bits .f32 = 32 ∨ (Rect.block (s := S8x8) S8x8.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x8.size a ≤ S200000x8.size a
  hwx1_5 : ∀ i : grid1.Coords, EltTy.bits .f32 = 32 ∨ (Rect.block (s := S200000x8) S4000x8.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x8.size a ≤ S200000x8.size a
  hwx2_0 : ∀ i : grid2.Coords, EltTy.bits .f32 = 32 ∨ (Rect.block (s := S200000x8) S4000x8.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x8.size a ≤ S200000x8.size a
  hwx2_1 : ∀ i : grid2.Coords, EltTy.bits .f32 = 32 ∨ (Rect.block (s := S200000x8) S4000x8.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8x8.size a ≤ S8x8.size a
  hwx2_2 : ∀ i : grid2.Coords, EltTy.bits .f32 = 32 ∨ (Rect.block (s := S8x8) S8x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x8.size a ≤ S1x8.size a
  hwx2_3 : ∀ i : grid2.Coords, EltTy.bits .f32 = 32 ∨ (Rect.block (s := S1x8) S1x8.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S8x8.size a ≤ S8x8.size a
  hwx2_4 : ∀ i : grid2.Coords, EltTy.bits .f32 = 32 ∨ (Rect.block (s := S8x8) S8x8.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x8.size a ≤ S200000x8.size a
  hwx2_5 : ∀ i : grid2.Coords, EltTy.bits .f32 = 32 ∨ (Rect.block (s := S200000x8) S4000x8.size (cc2_transform_5 i) (hinb2_5 i)).WholeWords (EltTy.packing .f32)

variable [Facts₀]

def gather_S200000x7_S6400000x1_S6400000x7_1_0_n_n_0_1_17 : GatherDims S200000x7 S6400000x1 S6400000x7 where
  offsetDims := [1]
  collapsedSliceDims := [0]
  operandBatchingDims := []
  startIndicesBatchingDims := []
  startIndexMap := [0]
  indexVectorDim := 1
  sliceSizes := ![1, 7]
  wf := gather_S200000x7_S6400000x1_S6400000x7_1_0_n_n_0_1_17_wf
def scatter_S200000x7_S6400000x1_S6400000x7_1_0_0_1 : ScatterDims S200000x7 S6400000x1 S6400000x7 where
  updateWindowDims := [1]
  insertedWindowDims := [0]
  scatterDimsToOperandDims := [0]
  indexVectorDim := 1
  wf := scatter_S200000x7_S6400000x1_S6400000x7_1_0_0_1_wf
def dot_S4000x7_S7x8_S4000x8_1_0_0_1_n_n : DotDims S4000x7 S7x8 S4000x8 where
  lhsContracting := [1]
  rhsContracting := [0]
  lhsNonContracting := [0]
  rhsNonContracting := [1]
  lhsBatch := []
  rhsBatch := []
  wf := dot_S4000x7_S7x8_S4000x8_1_0_0_1_n_n_wf
def gather_S200000x8_S6400000x1_S6400000x8_1_0_n_n_0_1_18 : GatherDims S200000x8 S6400000x1 S6400000x8 where
  offsetDims := [1]
  collapsedSliceDims := [0]
  operandBatchingDims := []
  startIndicesBatchingDims := []
  startIndexMap := [0]
  indexVectorDim := 1
  sliceSizes := ![1, 8]
  wf := gather_S200000x8_S6400000x1_S6400000x8_1_0_n_n_0_1_18_wf
def scatter_S200000x8_S6400000x1_S6400000x8_1_0_0_1 : ScatterDims S200000x8 S6400000x1 S6400000x8 where
  updateWindowDims := [1]
  insertedWindowDims := [0]
  scatterDimsToOperandDims := [0]
  indexVectorDim := 1
  wf := scatter_S200000x8_S6400000x1_S6400000x8_1_0_0_1_wf
def dot_S4000x8_S8x8_S4000x8_1_0_0_1_n_n : DotDims S4000x8 S8x8 S4000x8 where
  lhsContracting := [1]
  rhsContracting := [0]
  lhsNonContracting := [0]
  rhsNonContracting := [1]
  lhsBatch := []
  rhsBatch := []
  wf := dot_S4000x8_S8x8_S4000x8_1_0_0_1_n_n_wf
def scatter_S1000x8_S200000x1_S200000x8_1_0_0_1 : ScatterDims S1000x8 S200000x1 S200000x8 where
  updateWindowDims := [1]
  insertedWindowDims := [0]
  scatterDimsToOperandDims := [0]
  indexVectorDim := 1
  wf := scatter_S1000x8_S200000x1_S200000x8_1_0_0_1_wf
def scatter_S1000_S200000x1_S200000_n_0_0_1 : ScatterDims S1000 S200000x1 S200000 where
  updateWindowDims := []
  insertedWindowDims := [0]
  scatterDimsToOperandDims := [0]
  indexVectorDim := 1
  wf := scatter_S1000_S200000x1_S200000_n_0_0_1_wf
def dot_S1000x8_S8x3_S1000x3_1_0_0_1_n_n : DotDims S1000x8 S8x3 S1000x3 where
  lhsContracting := [1]
  rhsContracting := [0]
  lhsNonContracting := [0]
  rhsNonContracting := [1]
  lhsBatch := []
  rhsBatch := []
  wf := dot_S1000x8_S8x3_S1000x3_1_0_0_1_n_n_wf

abbrev win0_0 : Pipeline.Window sig grid0 :=
  Pipeline.Window.ofSpec (Memref.whole main_v13) S4000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x7.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S7x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S7x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S4000x8.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S4000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S8x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S8x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S4000x8.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S4000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S4000x8.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S8x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S8x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S4000x8.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S200000x7 : Shape := ⟨2, ![200000, 7]⟩
abbrev S2x6400000 : Shape := ⟨2, ![2, 6400000]⟩
abbrev S200000 : Shape := ⟨1, ![200000]⟩
abbrev S7x8 : Shape := ⟨2, ![7, 8]⟩
abbrev S8 : Shape := ⟨1, ![8]⟩
abbrev S8x8 : Shape := ⟨2, ![8, 8]⟩
abbrev S8x3 : Shape := ⟨2, ![8, 3]⟩
abbrev S3 : Shape := ⟨1, ![3]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x7 : Shape := ⟨2, ![6400000, 7]⟩
abbrev S200000x8 : Shape := ⟨2, ![200000, 8]⟩
abbrev S1x8 : Shape := ⟨2, ![1, 8]⟩
abbrev S6400000x8 : Shape := ⟨2, ![6400000, 8]⟩
abbrev S1000x8 : Shape := ⟨2, ![1000, 8]⟩
abbrev S200000x1 : Shape := ⟨2, ![200000, 1]⟩
abbrev S1000 : Shape := ⟨1, ![1000]⟩
abbrev S1000x1 : Shape := ⟨2, ![1000, 1]⟩
abbrev S1000x3 : Shape := ⟨2, ![1000, 3]⟩
abbrev S1x3 : Shape := ⟨2, ![1, 3]⟩

abbrev nBuf : Space → Nat
  | .hbm => 109
  | .vmem => 0
  | .smem => 0
  | _ => 0

abbrev bufTy : (tb : Table) → Fin (tcTables nBuf tb) → BufTy
  | .hbm, ⟨0, _⟩ => ⟨S200000x7, .f32⟩
  | .hbm, ⟨1, _⟩ => ⟨S2x6400000, .i32⟩
  | .hbm, ⟨2, _⟩ => ⟨S200000, .i32⟩
  | .hbm, ⟨3, _⟩ => ⟨S7x8, .f32⟩
  | .hbm, ⟨4, _⟩ => ⟨S8, .f32⟩
  | .hbm, ⟨5, _⟩ => ⟨S7x8, .f32⟩
  | .hbm, ⟨6, _⟩ => ⟨S8x8, .f32⟩
  | .hbm, ⟨7, _⟩ => ⟨S8, .f32⟩
  | .hbm, ⟨8, _⟩ => ⟨S8x8, .f32⟩
  | .hbm, ⟨9, _⟩ => ⟨S8x8, .f32⟩
  | .hbm, ⟨10, _⟩ => ⟨S8, .f32⟩
  | .hbm, ⟨11, _⟩ => ⟨S8x8, .f32⟩
  | .hbm, ⟨12, _⟩ => ⟨S8x3, .f32⟩
  | .hbm, ⟨13, _⟩ => ⟨S3, .f32⟩
  | .hbm, ⟨14, _⟩ => ⟨S1x6400000, .i32⟩
  | .hbm, ⟨15, _⟩ => ⟨S6400000, .i32⟩
  | .hbm, ⟨16, _⟩ => ⟨S1x6400000, .i32⟩
  | .hbm, ⟨17, _⟩ => ⟨S6400000, .i32⟩
  | .hbm, ⟨18, _⟩ => ⟨S_, .i32⟩
  | .hbm, ⟨19, _⟩ => ⟨S6400000, .i32⟩
  | .hbm, ⟨20, _⟩ => ⟨S6400000, .i1⟩
  | .hbm, ⟨21, _⟩ => ⟨S_, .i32⟩
  | .hbm, ⟨22, _⟩ => ⟨S6400000, .i32⟩
  | .hbm, ⟨23, _⟩ => ⟨S6400000, .i32⟩
  | .hbm, ⟨24, _⟩ => ⟨S6400000, .i32⟩
  | .hbm, ⟨25, _⟩ => ⟨S6400000x1, .i32⟩
  | .hbm, ⟨26, _⟩ => ⟨S6400000x7, .f32⟩
  | .hbm, ⟨27, _⟩ => ⟨S_, .f32⟩
  | .hbm, ⟨28, _⟩ => ⟨S200000x7, .f32⟩
  | .hbm, ⟨29, _⟩ => ⟨S6400000x1, .i32⟩
  | .hbm, ⟨30, _⟩ => ⟨S200000x7, .f32⟩
  | .hbm, ⟨31, _⟩ => ⟨S200000x8, .f32⟩
  | .hbm, ⟨32, _⟩ => ⟨S1x8, .f32⟩
  | .hbm, ⟨33, _⟩ => ⟨S200000x8, .f32⟩
  | .hbm, ⟨34, _⟩ => ⟨S200000x8, .f32⟩
  | .hbm, ⟨35, _⟩ => ⟨S200000x8, .f32⟩
  | .hbm, ⟨36, _⟩ => ⟨S200000x8, .f32⟩
  | .hbm, ⟨37, _⟩ => ⟨S_, .f32⟩
  | .hbm, ⟨38, _⟩ => ⟨S200000x8, .f32⟩
  | .hbm, ⟨39, _⟩ => ⟨S200000x8, .i1⟩
  | .hbm, ⟨40, _⟩ => ⟨S_, .f32⟩
  | .hbm, ⟨41, _⟩ => ⟨S200000x8, .f32⟩
  | .hbm, ⟨42, _⟩ => ⟨S200000x8, .f32⟩
  | .hbm, ⟨43, _⟩ => ⟨S200000x8, .f32⟩
  | .hbm, ⟨44, _⟩ => ⟨S_, .i32⟩
  | .hbm, ⟨45, _⟩ => ⟨S6400000, .i32⟩
  | .hbm, ⟨46, _⟩ => ⟨S6400000, .i1⟩
  | .hbm, ⟨47, _⟩ => ⟨S_, .i32⟩
  | .hbm, ⟨48, _⟩ => ⟨S6400000, .i32⟩
  | .hbm, ⟨49, _⟩ => ⟨S6400000, .i32⟩
  | .hbm, ⟨50, _⟩ => ⟨S6400000, .i32⟩
  | .hbm, ⟨51, _⟩ => ⟨S6400000x1, .i32⟩
  | .hbm, ⟨52, _⟩ => ⟨S6400000x8, .f32⟩
  | .hbm, ⟨53, _⟩ => ⟨S_, .f32⟩
  | .hbm, ⟨54, _⟩ => ⟨S200000x8, .f32⟩
  | .hbm, ⟨55, _⟩ => ⟨S6400000x1, .i32⟩
  | .hbm, ⟨56, _⟩ => ⟨S200000x8, .f32⟩
  | .hbm, ⟨57, _⟩ => ⟨S200000x8, .f32⟩
  | .hbm, ⟨58, _⟩ => ⟨S1x8, .f32⟩
  | .hbm, ⟨59, _⟩ => ⟨S200000x8, .f32⟩
  | .hbm, ⟨60, _⟩ => ⟨S200000x8, .f32⟩
  | .hbm, ⟨61, _⟩ => ⟨S200000x8, .f32⟩
  | .hbm, ⟨62, _⟩ => ⟨S200000x8, .f32⟩
  | .hbm, ⟨63, _⟩ => ⟨S_, .f32⟩
  | .hbm, ⟨64, _⟩ => ⟨S200000x8, .f32⟩
  | .hbm, ⟨65, _⟩ => ⟨S200000x8, .i1⟩
  | .hbm, ⟨66, _⟩ => ⟨S_, .f32⟩
  | .hbm, ⟨67, _⟩ => ⟨S200000x8, .f32⟩
  | .hbm, ⟨68, _⟩ => ⟨S200000x8, .f32⟩
  | .hbm, ⟨69, _⟩ => ⟨S200000x8, .f32⟩
  | .hbm, ⟨70, _⟩ => ⟨S_, .i32⟩
  | .hbm, ⟨71, _⟩ => ⟨S6400000, .i32⟩
  | .hbm, ⟨72, _⟩ => ⟨S6400000, .i1⟩
  | .hbm, ⟨73, _⟩ => ⟨S_, .i32⟩
  | .hbm, ⟨74, _⟩ => ⟨S6400000, .i32⟩
  | .hbm, ⟨75, _⟩ => ⟨S6400000, .i32⟩
  | .hbm, ⟨76, _⟩ => ⟨S6400000, .i32⟩
  | .hbm, ⟨77, _⟩ => ⟨S6400000x1, .i32⟩
  | .hbm, ⟨78, _⟩ => ⟨S6400000x8, .f32⟩
  | .hbm, ⟨79, _⟩ => ⟨S_, .f32⟩
  | .hbm, ⟨80, _⟩ => ⟨S200000x8, .f32⟩
  | .hbm, ⟨81, _⟩ => ⟨S6400000x1, .i32⟩
  | .hbm, ⟨82, _⟩ => ⟨S200000x8, .f32⟩
  | .hbm, ⟨83, _⟩ => ⟨S200000x8, .f32⟩
  | .hbm, ⟨84, _⟩ => ⟨S1x8, .f32⟩
  | .hbm, ⟨85, _⟩ => ⟨S200000x8, .f32⟩
  | .hbm, ⟨86, _⟩ => ⟨S200000x8, .f32⟩
  | .hbm, ⟨87, _⟩ => ⟨S200000x8, .f32⟩
  | .hbm, ⟨88, _⟩ => ⟨S200000x8, .f32⟩
  | .hbm, ⟨89, _⟩ => ⟨S_, .f32⟩
  | .hbm, ⟨90, _⟩ => ⟨S1000x8, .f32⟩
  | .hbm, ⟨91, _⟩ => ⟨S200000x1, .i32⟩
  | .hbm, ⟨92, _⟩ => ⟨S1000x8, .f32⟩
  | .hbm, ⟨93, _⟩ => ⟨S_, .f32⟩
  | .hbm, ⟨94, _⟩ => ⟨S200000, .f32⟩
  | .hbm, ⟨95, _⟩ => ⟨S_, .f32⟩
  | .hbm, ⟨96, _⟩ => ⟨S1000, .f32⟩
  | .hbm, ⟨97, _⟩ => ⟨S200000x1, .i32⟩
  | .hbm, ⟨98, _⟩ => ⟨S1000, .f32⟩
  | .hbm, ⟨99, _⟩ => ⟨S_, .f32⟩
  | .hbm, ⟨100, _⟩ => ⟨S1000, .f32⟩
  | .hbm, ⟨101, _⟩ => ⟨S1000, .f32⟩
  | .hbm, ⟨102, _⟩ => ⟨S1000x1, .f32⟩
  | .hbm, ⟨103, _⟩ => ⟨S1000x8, .f32⟩
  | .hbm, ⟨104, _⟩ => ⟨S1000x8, .f32⟩
  | .hbm, ⟨105, _⟩ => ⟨S1000x3, .f32⟩
  | .hbm, ⟨106, _⟩ => ⟨S1x3, .f32⟩
  | .hbm, ⟨107, _⟩ => ⟨S1000x3, .f32⟩
  | .hbm, ⟨108, _⟩ => ⟨S1000x3, .f32⟩
  | _, _ => ⟨S200000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_3 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_8 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_12 : Ref sig .tc := ⟨.hbm, 93, rfl⟩
abbrev main_v65 : Ref sig .tc := ⟨.hbm, 94, rfl⟩
abbrev main_cst_13 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S200000x7 : S_.BroadcastsInDim S200000x7 (![] : Fin 0 → Fin S200000x7.rank)
  bcast_S8_S1x8_1 : S8.BroadcastsInDim S1x8 (![1] : Fin 1 → Fin S1x8.rank)
  bcast_S1x8_S200000x8_0_1 : S1x8.BroadcastsInDim S200000x8 (![0, 1] : Fin 2 → Fin S200000x8.rank)
  bcast_S_S200000x8 : S_.BroadcastsInDim S200000x8 (![] : Fin 0 → Fin S200000x8.rank)
  bcast_S_S1000x8 : S_.BroadcastsInDim S1000x8 (![] : Fin 0 → Fin S1000x8.rank)
  bcast_S200000_S200000x1_0 : S200000.BroadcastsInDim S200000x1 (![0] : Fin 1 → Fin S200000x1.rank)
  bcast_S_S200000 : S_.BroadcastsInDim S200000 (![] : Fin 0 → Fin S200000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x8_0_1 : S1000x1.BroadcastsInDim S1000x8 (![0, 1] : Fin 2 → Fin S1000x8.rank)
  bcast_S3_S1x3_1 : S3.BroadcastsInDim S1x3 (![1] : Fin 1 → Fin S1x3.rank)
  bcast_S1x3_S1000x3_0_1 : S1x3.BroadcastsInDim S1000x3 (![0, 1] : Fin 2 → Fin S1000x3.rank)
  gather_S200000x7_S6400000x1_S6400000x7_1_0_n_n_0_1_17_wf : GatherDims.WF S200000x7 S6400000x1 S6400000x7 [1] [0] [] [0] [] 1 ![1, 7]
  scatter_S200000x7_S6400000x1_S6400000x7_1_0_0_1_wf : ScatterDims.WF S200000x7 S6400000x1 S6400000x7 [1] [0] [0] 1
  dot_S200000x7_S7x8_S200000x8_1_0_0_1_n_n_wf : DotDims.WF S200000x7 S7x8 S200000x8 [1] [0] [0] [1] [] []
  gather_S200000x8_S6400000x1_S6400000x8_1_0_n_n_0_1_18_wf : GatherDims.WF S200000x8 S6400000x1 S6400000x8 [1] [0] [] [0] [] 1 ![1, 8]
  scatter_S200000x8_S6400000x1_S6400000x8_1_0_0_1_wf : ScatterDims.WF S200000x8 S6400000x1 S6400000x8 [1] [0] [0] 1
  dot_S200000x8_S8x8_S200000x8_1_0_0_1_n_n_wf : DotDims.WF S200000x8 S8x8 S200000x8 [1] [0] [0] [1] [] []
  scatter_S1000x8_S200000x1_S200000x8_1_0_0_1_wf : ScatterDims.WF S1000x8 S200000x1 S200000x8 [1] [0] [0] 1
  scatter_S1000_S200000x1_S200000_n_0_0_1_wf : ScatterDims.WF S1000 S200000x1 S200000 [] [0] [0] 1
  dot_S1000x8_S8x3_S1000x3_1_0_0_1_n_n_wf : DotDims.WF S1000x8 S8x3 S1000x3 [1] [0] [0] [1] [] []

variable [Facts₀]

def gather_S200000x7_S6400000x1_S6400000x7_1_0_n_n_0_1_17 : GatherDims S200000x7 S6400000x1 S6400000x7 where
  offsetDims := [1]
  collapsedSliceDims := [0]
  operandBatchingDims := []
  startIndicesBatchingDims := []
  startIndexMap := [0]
  indexVectorDim := 1
  sliceSizes := ![1, 7]
  wf := gather_S200000x7_S6400000x1_S6400000x7_1_0_n_n_0_1_17_wf
def scatter_S200000x7_S6400000x1_S6400000x7_1_0_0_1 : ScatterDims S200000x7 S6400000x1 S6400000x7 where
  updateWindowDims := [1]
  insertedWindowDims := [0]
  scatterDimsToOperandDims := [0]
  indexVectorDim := 1
  wf := scatter_S200000x7_S6400000x1_S6400000x7_1_0_0_1_wf
def dot_S200000x7_S7x8_S200000x8_1_0_0_1_n_n : DotDims S200000x7 S7x8 S200000x8 where
  lhsContracting := [1]
  rhsContracting := [0]
  lhsNonContracting := [0]
  rhsNonContracting := [1]
  lhsBatch := []
  rhsBatch := []
  wf := dot_S200000x7_S7x8_S200000x8_1_0_0_1_n_n_wf
def gather_S200000x8_S6400000x1_S6400000x8_1_0_n_n_0_1_18 : GatherDims S200000x8 S6400000x1 S6400000x8 where
  offsetDims := [1]
  collapsedSliceDims := [0]
  operandBatchingDims := []
  startIndicesBatchingDims := []
  startIndexMap := [0]
  indexVectorDim := 1
  sliceSizes := ![1, 8]
  wf := gather_S200000x8_S6400000x1_S6400000x8_1_0_n_n_0_1_18_wf
def scatter_S200000x8_S6400000x1_S6400000x8_1_0_0_1 : ScatterDims S200000x8 S6400000x1 S6400000x8 where
  updateWindowDims := [1]
  insertedWindowDims := [0]
  scatterDimsToOperandDims := [0]
  indexVectorDim := 1
  wf := scatter_S200000x8_S6400000x1_S6400000x8_1_0_0_1_wf
def dot_S200000x8_S8x8_S200000x8_1_0_0_1_n_n : DotDims S200000x8 S8x8 S200000x8 where
  lhsContracting := [1]
  rhsContracting := [0]
  lhsNonContracting := [0]
  rhsNonContracting := [1]
  lhsBatch := []
  rhsBatch := []
  wf := dot_S200000x8_S8x8_S200000x8_1_0_0_1_n_n_wf
def scatter_S1000x8_S200000x1_S200000x8_1_0_0_1 : ScatterDims S1000x8 S200000x1 S200000x8 where
  updateWindowDims := [1]
  insertedWindowDims := [0]
  scatterDimsToOperandDims := [0]
  indexVectorDim := 1
  wf := scatter_S1000x8_S200000x1_S200000x8_1_0_0_1_wf
def scatter_S1000_S200000x1_S200000_n_0_0_1 : ScatterDims S1000 S200000x1 S200000 where
  updateWindowDims := []
  insertedWindowDims := [0]
  scatterDimsToOperandDims := [0]
  indexVectorDim := 1
  wf := scatter_S1000_S200000x1_S200000_n_0_0_1_wf
def dot_S1000x8_S8x3_S1000x3_1_0_0_1_n_n : DotDims S1000x8 S8x3 S1000x3 where
  lhsContracting := [1]
  rhsContracting := [0]
  lhsNonContracting := [0]
  rhsNonContracting := [1]
  lhsBatch := []
  rhsBatch := []
  wf := dot_S1000x8_S8x3_S1000x3_1_0_0_1_n_n_wf

class Facts : Prop extends Facts₀ where

variable [Facts]
-- ==== Proof.LibPlainDot.lean ====
/-
  A plain matrix product read at an entry.

  For a contraction of an [A, K] array with a [K, B] array over the shared axis — no batch axes, the rows of the left
  operand and the columns of the right operand kept — the (p, q) entry is the sum over k < K of left (p, k) times
  right (k, q). This holds for the product taken on the host and, into a zero accumulator, for the product taken in the
  kernel; both are stated here as sums over `Fin K`.
-/
import Idealize.ShloMosaic.Lib.ValueIdx
import Idealize.ShloMosaic.PureOps.Ideal.Laws

noncomputable section
open scoped BigOperators
namespace Cert.PlainDot
open Idealize.ShloMosaic Idealize.ShloMosaic.ValueIdx

variable {A K B : Nat}

/-- The dimension numbers of an [A, K] by [K, B] product. -/
abbrev Dot2 (A K B : Nat) : Type :=
  DotDims (⟨2, ![A, K]⟩ : Shape) (⟨2, ![K, B]⟩ : Shape) (⟨2, ![A, B]⟩ : Shape)

/-- The left operand's second axis meets the right operand's first; the other two axes are kept; nothing is batched. -/
structure IsPlain (d : Dot2 A K B) : Prop where
  lc : d.lhsContracting = [1]
  rc : d.rhsContracting = [0]
  ln : d.lhsNonContracting = [0]
  rn : d.rhsNonContracting = [1]
  lb : d.lhsBatch = []
  rb : d.rhsBatch = []

section Coordinates
variable (wf : DotDims.WF (⟨2, ![A, K]⟩ : Shape) (⟨2, ![K, B]⟩ : Shape) (⟨2, ![A, B]⟩ : Shape) [1] [0] [0] [1] [] [])

/-- The left operand's row is the entry's row. -/
theorem lhs0 (i : (⟨2, ![A, B]⟩ : Shape).Idx) (q : (⟨[1], [0], [0], [1], [], [], wf⟩ : Dot2 A K B).contr.Idx) :
    ((⟨[1], [0], [0], [1], [], [], wf⟩ : Dot2 A K B).lhsIdx i q 0).val = (i 0).val := by
  unfold DotDims.lhsIdx
  rw [dif_neg (show ¬(0 : Fin 2) ∈ (⟨[1], [0], [0], [1], [], [], wf⟩ : Dot2 A K B).lhsBatch from List.not_mem_nil),
    dif_pos (show (0 : Fin 2) ∈ (⟨[1], [0], [0], [1], [], [], wf⟩ : Dot2 A K B).lhsNonContracting from List.mem_singleton.mpr rfl)]
  rfl

/-- The left operand's column is the contracted index. -/
theorem lhs1 (i : (⟨2, ![A, B]⟩ : Shape).Idx) (q : (⟨[1], [0], [0], [1], [], [], wf⟩ : Dot2 A K B).contr.Idx) :
    ((⟨[1], [0], [0], [1], [], [], wf⟩ : Dot2 A K B).lhsIdx i q 1).val = (q ⟨0, Nat.one_pos⟩).val :=
  (⟨[1], [0], [0], [1], [], [], wf⟩ : Dot2 A K B).lhsIdx_val_of_single rfl i q

/-- The right operand's row is the contracted index. -/
theorem rhs0 (i : (⟨2, ![A, B]⟩ : Shape).Idx) (q : (⟨[1], [0], [0], [1], [], [], wf⟩ : Dot2 A K B).contr.Idx) :
    ((⟨[1], [0], [0], [1], [], [], wf⟩ : Dot2 A K B).rhsIdx i q 0).val = (q ⟨0, Nat.one_pos⟩).val :=
  (⟨[1], [0], [0], [1], [], [], wf⟩ : Dot2 A K B).rhsIdx_val_of_single rfl i q

/-- The right operand's column is the entry's column. -/
theorem rhs1 (i : (⟨2, ![A, B]⟩ : Shape).Idx) (q : (⟨[1], [0], [0], [1], [], [], wf⟩ : Dot2 A K B).contr.Idx) :
    ((⟨[1], [0], [0], [1], [], [], wf⟩ : Dot2 A K B).rhsIdx i q 1).val = (i 1).val := by
  unfold DotDims.rhsIdx
  rw [dif_neg (show ¬(1 : Fin 2) ∈ (⟨[1], [0], [0], [1], [], [], wf⟩ : Dot2 A K B).rhsBatch from List.not_mem_nil),
    dif_pos (show (1 : Fin 2) ∈ (⟨[1], [0], [0], [1], [], [], wf⟩ : Dot2 A K B).rhsNonContracting from List.mem_singleton.mpr rfl)]
  rfl

end Coordinates

/-- The sum over the contracted index, re-indexed by `Fin K`, with the operand entries named by their coordinates. -/
theorem sum_contr (d : Dot2 A K B) (hd : IsPlain d) (l : (⟨2, ![A, K]⟩ : Shape).Idx → EReal)
    (r : (⟨2, ![K, B]⟩ : Shape).Idx → EReal) (i : (⟨2, ![A, B]⟩ : Shape).Idx) :
    ∑ q : d.contr.Idx, l (d.lhsIdx i q) * r (d.rhsIdx i q) = ∑ k : Fin K, l (ix2 (i 0) k) * r (ix2 k (i 1)) := by
  obtain ⟨lc, rc, ln, rn, lb, rb, wf⟩ := d
  obtain ⟨h1, h2, h3, h4, h5, h6⟩ := hd
  dsimp only at h1 h2 h3 h4 h5 h6
  subst h1 h2 h3 h4 h5 h6
  rw [← Equiv.sum_comp (contrEquiv1 (⟨[1], [0], [0], [1], [], [], wf⟩ : Dot2 A K B) K rfl rfl).symm]
  refine Finset.sum_congr rfl fun k _ => ?_
  have hk := contrEquiv1_symm_val (⟨[1], [0], [0], [1], [], [], wf⟩ : Dot2 A K B) K rfl rfl k
  have el : (⟨[1], [0], [0], [1], [], [], wf⟩ : Dot2 A K B).lhsIdx i
      ((contrEquiv1 (⟨[1], [0], [0], [1], [], [], wf⟩ : Dot2 A K B) K rfl rfl).symm k) = ix2 (i 0) k :=
    funext fun a => Fin.ext (by
      match a with
      | ⟨0, _⟩ => exact lhs0 wf _ _
      | ⟨1, _⟩ => exact (lhs1 wf _ _).trans hk)
  have er : (⟨[1], [0], [0], [1], [], [], wf⟩ : Dot2 A K B).rhsIdx i
      ((contrEquiv1 (⟨[1], [0], [0], [1], [], [], wf⟩ : Dot2 A K B) K rfl rfl).symm k) = ix2 k (i 1) :=
    funext fun a => Fin.ext (by
      match a with
      | ⟨0, _⟩ => exact (rhs0 wf _ _).trans hk
      | ⟨1, _⟩ => exact rhs1 wf _ _)
  exact congrArg₂ (· * ·) (congrArg l el) (congrArg r er)

/-- The host's product at an entry. -/
theorem dotGeneral_plain {φ₁ φ₂ : FTy} (d : Dot2 A K B) (hd : IsPlain d) (prec : Option ContractPrecision) (sched : HostSchedule)
    (l : FVec Ideal (⟨2, ![A, K]⟩ : Shape) φ₁) (r : FVec Ideal (⟨2, ![K, B]⟩ : Shape) φ₂) (i : (⟨2, ![A, B]⟩ : Shape).Idx) :
    FloatOps.dotGeneral d prec sched l r i = ∑ k : Fin K, l (ix2 (i 0) k) * r (ix2 k (i 1)) := by
  rw [Ideal.dotGeneral_apply]
  exact sum_contr d hd l r i

/-- The kernel's product into a zero accumulator at an entry. -/
theorem matmul_zero_plain {φ₁ φ₂ : FTy} (d : Dot2 A K B) (hd : IsPlain d) (prec : Option ContractPrecision)
    (l : FVec Ideal (⟨2, ![A, K]⟩ : Shape) φ₁) (r : FVec Ideal (⟨2, ![K, B]⟩ : Shape) φ₂) (i : (⟨2, ![A, B]⟩ : Shape).Idx) :
    FloatOps.matmul d prec l r (constant (⟨2, ![A, B]⟩ : Shape) .f32 0x00000000#32) i
      = ∑ k : Fin K, l (ix2 (i 0) k) * r (ix2 k (i 1)) := by
  rw [Ideal.matmul_constant_zero_apply]
  exact sum_contr d hd l r i

end Cert.PlainDot
-- ==== Proof.Dense.lean ====
/-
  One graph-convolution layer's dense part, read at an entry.

  For row features `a` (the neighbour sums) and `x` (the node's own features), both [A, K], weights `w`, `r` : [K, 8] and a
  bias `b` of 8 entries, the layer's (p, q) entry is

      Σ_k a(p,k)·w(k,q)  +  Σ_k x(p,k)·r(k,q)  +  b(q).

  One program adds the bias after both products, the other between them; addition of extended reals is commutative and
  associative, so the two groupings agree with no finiteness assumption. The activation `act` keeps a value that
  compares ≥ 0 and scales any other by the constant both programs carry.
-/
import Idealize.ShloMosaic.Lib.ValueIdx
import Idealize.ShloMosaic.Lib.Pipeline.Value
import Idealize.ShloMosaic.PureOps.Ideal.Laws
import proofs.«142039_j27908697490049_1_alg».proof.Proof.LibPlainDot

noncomputable section
open scoped BigOperators
namespace Cert.GraphConv
open Idealize.ShloMosaic Idealize.ShloMosaic.ValueIdx Cert.PlainDot

variable {A A' K : Nat}

/-- The layer's (p, q) entry before the activation: both products, then the bias. -/
def lin (a x : (⟨2, ![A, K]⟩ : Shape).Idx → EReal) (w r : (⟨2, ![K, 8]⟩ : Shape).Idx → EReal) (b : Fin 8 → EReal)
    (p : Fin A) (q : Fin 8) : EReal :=
  (∑ k : Fin K, a (ix2 p k) * w (ix2 k q) + ∑ k : Fin K, x (ix2 p k) * r (ix2 k q)) + b q

/-- The entry depends only on row p of the two feature arrays, column q of the two weight matrices and entry q of the
    bias: two layers that agree on those agree at the entry, whatever the other rows hold. -/
theorem lin_congr (a x : (⟨2, ![A, K]⟩ : Shape).Idx → EReal) (a' x' : (⟨2, ![A', K]⟩ : Shape).Idx → EReal)
    (w r w' r' : (⟨2, ![K, 8]⟩ : Shape).Idx → EReal) (b b' : Fin 8 → EReal) (p : Fin A) (p' : Fin A') (q q' : Fin 8)
    (ha : ∀ k, a (ix2 p k) = a' (ix2 p' k)) (hx : ∀ k, x (ix2 p k) = x' (ix2 p' k))
    (hw : ∀ k, w (ix2 k q) = w' (ix2 k q')) (hr : ∀ k, r (ix2 k q) = r' (ix2 k q')) (hb : b q = b' q') :
    lin a x w r b p q = lin a' x' w' r' b' p' q' := by
  unfold lin
  simp only [ha, hx, hw, hr, hb]

/-- The activation on one extended real: the value itself where it compares ≥ 0, the constant times it elsewhere. -/
def act (z : EReal) : EReal :=
  Scalar.select (Ideal.cmp .oge z (Ideal.ofBits .f32 0x00000000#32)) z (Ideal.ofBits .f32 0x3C23D70A#32 * z)

/-- The layer as a whole array, without and with the activation. -/
def layer (a x : (⟨2, ![A, K]⟩ : Shape).Idx → EReal) (w r : (⟨2, ![K, 8]⟩ : Shape).Idx → EReal) (b : Fin 8 → EReal) :
    (⟨2, ![A, 8]⟩ : Shape).Idx → EReal := fun i => lin a x w r b ⟨(i 0).val, idx2_lt0 i⟩ ⟨(i 1).val, idx2_lt1 i⟩

def layerAct (a x : (⟨2, ![A, K]⟩ : Shape).Idx → EReal) (w r : (⟨2, ![K, 8]⟩ : Shape).Idx → EReal) (b : Fin 8 → EReal) :
    (⟨2, ![A, 8]⟩ : Shape).Idx → EReal := fun i => act (lin a x w r b ⟨(i 0).val, idx2_lt0 i⟩ ⟨(i 1).val, idx2_lt1 i⟩)

/-- The bias broadcast to a row and then along the rows, at an entry, is the bias's entry of that column. -/
theorem bias_rows_at (h1 : (⟨1, ![8]⟩ : Shape).BroadcastsInDim (⟨2, ![1, 8]⟩ : Shape) ![1])
    (h2 : (⟨2, ![1, 8]⟩ : Shape).BroadcastsInDim (⟨2, ![A, 8]⟩ : Shape) ![0, 1])
    (b : (⟨1, ![8]⟩ : Shape).Idx → EReal) (p : Fin A) (q : Fin 8) :
    broadcastInDim (⟨2, ![A, 8]⟩ : Shape) ![0, 1] h2 (broadcastInDim (⟨2, ![1, 8]⟩ : Shape) ![1] h1 b) (ix2 p q) = b (ix1 q) :=
  (broadcastInDim_apply ![0, 1] h2 _ (ix2 p q) (ix2 (0 : Fin 1) q) (fun a => by
      match a with
      | ⟨0, _⟩ => rfl
      | ⟨1, _⟩ => rfl)).trans
    (broadcastInDim_apply ![1] h1 b (ix2 (0 : Fin 1) q) (ix1 q) (fun a => by
      match a with
      | ⟨0, _⟩ => rfl))

/-- The host's spelling of the layer — product, bias broadcast along the rows, second product — at an entry. -/
theorem host_at (d : Dot2 A K 8) (hd : IsPlain d)
    (h1 : (⟨1, ![8]⟩ : Shape).BroadcastsInDim (⟨2, ![1, 8]⟩ : Shape) ![1])
    (h2 : (⟨2, ![1, 8]⟩ : Shape).BroadcastsInDim (⟨2, ![A, 8]⟩ : Shape) ![0, 1])
    (a x : FVec Ideal (⟨2, ![A, K]⟩ : Shape) .f32) (w r : FVec Ideal (⟨2, ![K, 8]⟩ : Shape) .f32)
    (b : FVec Ideal (⟨1, ![8]⟩ : Shape) .f32) (p : Fin A) (q : Fin 8) :
    addf (addf (Host.dotGeneral d none a w)
        (broadcastInDim (⟨2, ![A, 8]⟩ : Shape) ![0, 1] h2 (broadcastInDim (⟨2, ![1, 8]⟩ : Shape) ![1] h1 b)))
      (Host.dotGeneral d none x r) (ix2 p q)
      = lin a x w r (fun q => b (ix1 q)) p q := by
  show (FloatOps.dotGeneral d none .single a w (ix2 p q)
      + broadcastInDim (⟨2, ![A, 8]⟩ : Shape) ![0, 1] h2 (broadcastInDim (⟨2, ![1, 8]⟩ : Shape) ![1] h1 b) (ix2 p q))
      + FloatOps.dotGeneral d none .single x r (ix2 p q) = _
  rw [dotGeneral_plain d hd none .single a w (ix2 p q), dotGeneral_plain d hd none .single x r (ix2 p q),
    bias_rows_at h1 h2 b p q]
  exact add_right_comm _ _ _

/-- The kernel's spelling on a block — both products into zero accumulators, then the bias row broadcast — at an entry. -/
theorem kernel_at (d : Dot2 A K 8) (hd : IsPlain d) (hb : (⟨2, ![1, 8]⟩ : Shape).Broadcasts (⟨2, ![A, 8]⟩ : Shape))
    {φ₁ φ₂ : FTy} (a x : FVec Ideal (⟨2, ![A, K]⟩ : Shape) φ₁) (w r : FVec Ideal (⟨2, ![K, 8]⟩ : Shape) φ₂)
    (b2 : FVec Ideal (⟨2, ![1, 8]⟩ : Shape) .f32) (p : Fin A) (q : Fin 8) :
    addf (addf (matmul d none a w (constant (⟨2, ![A, 8]⟩ : Shape) .f32 0x00000000#32))
        (matmul d none x r (constant (⟨2, ![A, 8]⟩ : Shape) .f32 0x00000000#32)))
      (broadcastTo (⟨2, ![A, 8]⟩ : Shape) b2 hb) (ix2 p q)
      = lin a x w r (fun q => b2 (ix2 (0 : Fin 1) q)) p q := by
  show (FloatOps.matmul d none a w (constant (⟨2, ![A, 8]⟩ : Shape) .f32 0x00000000#32) (ix2 p q)
      + FloatOps.matmul d none x r (constant (⟨2, ![A, 8]⟩ : Shape) .f32 0x00000000#32) (ix2 p q))
      + broadcastTo (⟨2, ![A, 8]⟩ : Shape) b2 hb (ix2 p q) = _
  rw [matmul_zero_plain d hd none a w (ix2 p q), matmul_zero_plain d hd none x r (ix2 p q),
    broadcastTo_apply b2 hb (ix2 p q) (ix2 (0 : Fin 1) q) (fun a => by
      match a with
      | ⟨0, _⟩ => rfl
      | ⟨1, _⟩ => rfl)]
  rfl

end Cert.GraphConv
-- ==== Proof.Region0.lean ====
/-
  The first layer's kernel region, read as one whole-array function.

  The region walks the 200000 rows in 50 blocks of 4000. At grid point t it loads rows 4000·t … 4000·t + 3999 of the
  neighbour sums and of the node features, the two 7×8 weight matrices and the 1×8 bias row whole, and stores
  act(a·w + x·r + b) into rows 4000·t … of the output. Each output row depends only on the same row of the two feature
  arrays, so block t of the output is block t of the layer computed on the whole arrays; the 50 blocks tile the output,
  and the array the region leaves is the whole-array layer of the arrays it found.
-/
import proofs.«142039_j27908697490049_1_alg».proof.Proof.Gen.KernelIdeal.Frame
import proofs.«142039_j27908697490049_1_alg».proof.Proof.Dense
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Layer0

open Cert.KernelIdeal Cert.KernelIdeal.Gen Cert.GraphConv Cert.PlainDot

variable (V : (c : Dev nD) → (b : Ref sig .tc) → Buf (Elt Ideal) ((c : Thread nD τ).loc b))

theorem hz : (![0, 0] : Fin 2 → Nat) = fun _ => 0 := funext fun a => by fin_cases a <;> rfl

/-- The block's contraction is the plain one: rows by the shared axis, the shared axis by columns. -/
theorem plain : IsPlain (dot_S4000x7_S7x8_S4000x8_1_0_0_1_n_n : Dot2 4000 7 8) := ⟨rfl, rfl, rfl, rfl, rfl, rfl⟩

/-- What the body stores, at an entry of the block: the activation of the two products' sum plus the bias. -/
theorem pay_at (x0 x1 : Vec Ideal S4000x7 .f32) (w r : Vec Ideal S7x8 .f32) (b2 : Vec Ideal S1x8 .f32) (p : Fin 4000) (q : Fin 8) :
    k0_pay1 (F := Ideal) x0 x1 w r b2 (ix2 p q) = act (lin x0 x1 w r (fun q => b2 (ix2 (0 : Fin 1) q)) p q) := by
  unfold k0_pay1
  simp only [shapeCast_self]
  exact congrArg act (kernel_at dot_S4000x7_S7x8_S4000x8_1_0_0_1_n_n plain broadcasts_S1x8_S4000x8
    (truncf .bf16 x0 bitsLt_bf16_f32) (truncf .bf16 x1 bitsLt_bf16_f32) (truncf .bf16 w bitsLt_bf16_f32)
    (truncf .bf16 r bitsLt_bf16_f32) b2 p q)

/-- The printed index maps over the grid: the two row windows and the output move with the point; the weights and the
    bias row stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Block t of the neighbour sums is their rows 4000·t …. -/
theorem blk0_apply (c : Dev nD) (t : Fin cfg0.N) (y : S4000x7.Idx) (k : S200000x7.Idx)
    (h0 : (k 0).val = t.val * 4000 + (y 0).val) (h1 : (k 1).val = (y 1).val) :
    (iblk0 V c 0 t : Vec Ideal S4000x7 .f32) y = (V c main_v13 : S200000x7.Idx → EReal) k := by
  obtain ⟨e0, e1, -⟩ := idx_facts t
  unfold iblk0
  rw [View.read_apply]
  show V c main_v13 _ = V c main_v13 k
  congr 1
  funext a; apply Fin.ext
  match a with
  | ⟨0, _⟩ => show win0_0.index t 0 * 4000 + 1 * (y 0).val = (k 0).val; rw [e0, h0]; omega
  | ⟨1, _⟩ => show win0_0.index t 1 * 7 + 1 * (y 1).val = (k 1).val; rw [e1, h1]; omega

/-- Block t of the node features is their rows 4000·t …. -/
theorem blk1_apply (c : Dev nD) (t : Fin cfg0.N) (y : S4000x7.Idx) (k : S200000x7.Idx)
    (h0 : (k 0).val = t.val * 4000 + (y 0).val) (h1 : (k 1).val = (y 1).val) :
    (iblk0 V c 1 t : Vec Ideal S4000x7 .f32) y = (V c main_arg0 : S200000x7.Idx → EReal) k := by
  obtain ⟨-, -, e0, e1, -⟩ := idx_facts t
  unfold iblk0
  rw [View.read_apply]
  show V c main_arg0 _ = V c main_arg0 k
  congr 1
  funext a; apply Fin.ext
  match a with
  | ⟨0, _⟩ => show win0_1.index t 0 * 4000 + 1 * (y 0).val = (k 0).val; rw [e0, h0]; omega
  | ⟨1, _⟩ => show win0_1.index t 1 * 7 + 1 * (y 1).val = (k 1).val; rw [e1, h1]; omega

/-- The first weight matrix is loaded whole at every point. -/
theorem blk2_apply (c : Dev nD) (t : Fin cfg0.N) (y : S7x8.Idx) :
    (iblk0 V c 2 t : Vec Ideal S7x8 .f32) y = (V c main_arg3 : S7x8.Idx → EReal) y := by
  obtain ⟨-, -, -, -, e0, e1, -⟩ := idx_facts t
  unfold iblk0
  rw [View.read_apply]
  show V c main_arg3 _ = V c main_arg3 y
  congr 1
  funext a; apply Fin.ext
  match a with
  | ⟨0, _⟩ => show win0_2.index t 0 * 7 + 1 * (y 0).val = (y 0).val; rw [e0]; omega
  | ⟨1, _⟩ => show win0_2.index t 1 * 8 + 1 * (y 1).val = (y 1).val; rw [e1]; omega

/-- The bias row is loaded whole at every point. -/
theorem blk3_apply (c : Dev nD) (t : Fin cfg0.N) (y : S1x8.Idx) :
    (iblk0 V c 3 t : Vec Ideal S1x8 .f32) y = (V c main_v14 : S1x8.Idx → EReal) y := by
  obtain ⟨-, -, -, -, -, -, e0, e1, -⟩ := idx_facts t
  unfold iblk0
  rw [View.read_apply]
  show V c main_v14 _ = V c main_v14 y
  congr 1
  funext a; apply Fin.ext
  match a with
  | ⟨0, _⟩ => show win0_3.index t 0 * 1 + 1 * (y 0).val = (y 0).val; rw [e0]; omega
  | ⟨1, _⟩ => show win0_3.index t 1 * 8 + 1 * (y 1).val = (y 1).val; rw [e1]; omega

/-- The second weight matrix is loaded whole at every point. -/
theorem blk4_apply (c : Dev nD) (t : Fin cfg0.N) (y : S7x8.Idx) :
    (iblk0 V c 4 t : Vec Ideal S7x8 .f32) y = (V c main_arg5 : S7x8.Idx → EReal) y := by
  obtain ⟨-, -, -, -, -, -, -, -, e0, e1, -⟩ := idx_facts t
  unfold iblk0
  rw [View.read_apply]
  show V c main_arg5 _ = V c main_arg5 y
  congr 1
  funext a; apply Fin.ext
  match a with
  | ⟨0, _⟩ => show win0_4.index t 0 * 7 + 1 * (y 0).val = (y 0).val; rw [e0]; omega
  | ⟨1, _⟩ => show win0_4.index t 1 * 8 + 1 * (y 1).val = (y 1).val; rw [e1]; omega

/-- The layer on the whole arrays the region finds. -/
abbrev whole (c : Dev nD) : S200000x8.Idx → EReal :=
  layerAct (V c main_v13 : S200000x7.Idx → EReal) (V c main_arg0 : S200000x7.Idx → EReal)
    (V c main_arg3 : S7x8.Idx → EReal) (V c main_arg5 : S7x8.Idx → EReal)
    (fun q => (V c main_v14 : S1x8.Idx → EReal) (ix2 (0 : Fin 1) q))

/-- What point t writes back is block t of the whole-array layer. -/
theorem flushed_eq (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero hz]
  simp only [View.ld_unit_zero (S := S4000x7) hz, View.ld_unit_zero (S := S7x8) hz, View.ld_unit_zero (S := S1x8) hz]
  obtain ⟨-, -, -, -, -, -, -, -, -, -, e0, e1⟩ := idx_facts t
  funext j
  obtain ⟨p, q, rfl⟩ : ∃ (p : Fin 4000) (q : Fin 8), j = ix2 p q := ⟨j 0, j 1, eq_ix2 j⟩
  show k0_pay1 (iblk0 V c 0 t) (iblk0 V c 1 t) (iblk0 V c 2 t) (iblk0 V c 4 t) (iblk0 V c 3 t) (ix2 p q)
    = whole V c (((cfg0.win 5).blk t).view.emb (ix2 p q))
  refine (pay_at _ _ _ _ _ p q).trans (congrArg act ?_)
  have hr : ((((cfg0.win 5).blk t).view.emb (ix2 p q)) 0).val = t.val * 4000 + p.val := by
    show win0_5.index t 0 * 4000 + 1 * p.val = _; rw [e0]; omega
  have hc : ((((cfg0.win 5).blk t).view.emb (ix2 p q)) 1).val = q.val := by
    show win0_5.index t 1 * 8 + 1 * q.val = _; rw [e1]; omega
  refine lin_congr _ _ _ _ _ _ _ _ _ _ p _ q _ ?_ ?_ ?_ ?_ ?_
  · exact fun k => blk0_apply V c t (ix2 p k) _ hr rfl
  · exact fun k => blk1_apply V c t (ix2 p k) _ hr rfl
  · exact fun k => (blk2_apply V c t (ix2 k q)).trans (congrArg _ (funext fun a => Fin.ext (by
      match a with
      | ⟨0, _⟩ => rfl
      | ⟨1, _⟩ => exact hc.symm)))
  · exact fun k => (blk4_apply V c t (ix2 k q)).trans (congrArg _ (funext fun a => Fin.ext (by
      match a with
      | ⟨0, _⟩ => rfl
      | ⟨1, _⟩ => exact hc.symm)))
  · exact (blk3_apply V c t (ix2 (0 : Fin 1) q)).trans (congrArg _ (funext fun a => Fin.ext (by
      match a with
      | ⟨0, _⟩ => rfl
      | ⟨1, _⟩ => exact hc.symm)))

/-- An index is in point t's block iff its row is among the block's 4000. -/
theorem mem_blk (t : Fin cfg0.N) (i : S200000x8.Idx) :
    i ∈ ((cfg0.win 5).blk t).view.set ↔ ∀ a : Fin 2, win0_5.index t a * S4000x8.size a ≤ (i a).val ∧ (i a).val < win0_5.index t a * S4000x8.size a + S4000x8.size a := by
  show i ∈ ((View.whole main_v15).slice (win0_5.rect t)).set ↔ _
  rw [View.set_slice_whole, Rect.mem_set_unit]
  exact Iff.rfl

/-- The 50 blocks cover the output: row ρ is in block ρ / 4000. -/
theorem cover (i : S200000x8.Idx) : ∃ t : Fin cfg0.N, (cfg0.win 5).flush t = true ∧ i ∈ ((cfg0.win 5).blk t).view.set := by
  have hi0 : (i 0).val < 200000 := (i 0).isLt
  have hi1 : (i 1).val < 8 := (i 1).isLt
  have hN : cfg0.N = 50 := N_0
  refine ⟨⟨(i 0).val / 4000, by rw [hN]; omega⟩, flush0_5 _, ?_⟩
  rw [mem_blk]
  obtain ⟨-, -, -, -, -, -, -, -, -, -, e0, e1⟩ := idx_facts ⟨(i 0).val / 4000, by rw [hN]; omega⟩
  intro a
  match a with
  | ⟨0, _⟩ => show win0_5.index _ 0 * 4000 ≤ (i 0).val ∧ (i 0).val < win0_5.index _ 0 * 4000 + 4000; rw [e0]; show (i 0).val / 4000 * 4000 ≤ _ ∧ _ < (i 0).val / 4000 * 4000 + 4000; omega
  | ⟨1, _⟩ => show win0_5.index _ 1 * 8 ≤ (i 1).val ∧ (i 1).val < win0_5.index _ 1 * 8 + 8; rw [e1]; omega

/-- The output array the region leaves is the layer of the arrays it found. -/
theorem arr_eq (c : Dev nD) : (dat0 V c).arrAt 5 cfg0.N = whole V c :=
  (dat0 V c).arrAt_eq_of_cover 5 (whole V c) (fun t _ => flushed_eq V c t) (cover)

end Cert.KernelIdeal.Layer0

end
-- ==== Proof.Region1.lean ====
/-
  The second layer's kernel region, read as one whole-array function.

  As in the first layer, with 8-wide rows: at grid point t the region loads rows 4000·t … 4000·t + 3999 of the neighbour
  sums and of the previous layer's output, the two 8×8 weight matrices and the 1×8 bias row whole, and stores
  act(a·w + x·r + b) into the same rows of its output. Block t of the output is block t of the layer computed on the
  whole arrays, the 50 blocks tile the output, and the array the region leaves is the whole-array layer of the arrays
  it found.
-/
import proofs.«142039_j27908697490049_1_alg».proof.Proof.Gen.KernelIdeal.Frame
import proofs.«142039_j27908697490049_1_alg».proof.Proof.Dense
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Layer1

open Cert.KernelIdeal Cert.KernelIdeal.Gen Cert.GraphConv Cert.PlainDot

variable (V : (c : Dev nD) → (b : Ref sig .tc) → Buf (Elt Ideal) ((c : Thread nD τ).loc b))

theorem hz : (![0, 0] : Fin 2 → Nat) = fun _ => 0 := funext fun a => by fin_cases a <;> rfl

/-- The block's contraction is the plain one: rows by the shared axis, the shared axis by columns. -/
theorem plain : IsPlain (dot_S4000x8_S8x8_S4000x8_1_0_0_1_n_n : Dot2 4000 8 8) := ⟨rfl, rfl, rfl, rfl, rfl, rfl⟩

/-- What the body stores, at an entry of the block: the activation of the two products' sum plus the bias. -/
theorem pay_at (x0 x1 : Vec Ideal S4000x8 .f32) (w r : Vec Ideal S8x8 .f32) (b2 : Vec Ideal S1x8 .f32) (p : Fin 4000) (q : Fin 8) :
    k1_pay1 (F := Ideal) x0 x1 w r b2 (ix2 p q) = act (lin x0 x1 w r (fun q => b2 (ix2 (0 : Fin 1) q)) p q) := by
  unfold k1_pay1
  simp only [shapeCast_self]
  exact congrArg act (kernel_at dot_S4000x8_S8x8_S4000x8_1_0_0_1_n_n plain broadcasts_S1x8_S4000x8
    (truncf .bf16 x0 bitsLt_bf16_f32) (truncf .bf16 x1 bitsLt_bf16_f32) (truncf .bf16 w bitsLt_bf16_f32)
    (truncf .bf16 r bitsLt_bf16_f32) b2 p q)

/-- The printed index maps over the grid: the two row windows and the output move with the point; the weights and the
    bias row stay at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Block t of the neighbour sums is their rows 4000·t …. -/
theorem blk0_apply (c : Dev nD) (t : Fin cfg1.N) (y : S4000x8.Idx) (k : S200000x8.Idx)
    (h0 : (k 0).val = t.val * 4000 + (y 0).val) (h1 : (k 1).val = (y 1).val) :
    (iblk1 V c 0 t : Vec Ideal S4000x8 .f32) y = (V c main_v25 : S200000x8.Idx → EReal) k := by
  obtain ⟨e0, e1, -⟩ := idx_facts t
  unfold iblk1
  rw [View.read_apply]
  show V c main_v25 _ = V c main_v25 k
  congr 1
  funext a; apply Fin.ext
  match a with
  | ⟨0, _⟩ => show win1_0.index t 0 * 4000 + 1 * (y 0).val = (k 0).val; rw [e0, h0]; omega
  | ⟨1, _⟩ => show win1_0.index t 1 * 8 + 1 * (y 1).val = (k 1).val; rw [e1, h1]; omega

/-- Block t of the node features is their rows 4000·t …. -/
theorem blk1_apply (c : Dev nD) (t : Fin cfg1.N) (y : S4000x8.Idx) (k : S200000x8.Idx)
    (h0 : (k 0).val = t.val * 4000 + (y 0).val) (h1 : (k 1).val = (y 1).val) :
    (iblk1 V c 1 t : Vec Ideal S4000x8 .f32) y = (V c main_v15 : S200000x8.Idx → EReal) k := by
  obtain ⟨-, -, e0, e1, -⟩ := idx_facts t
  unfold iblk1
  rw [View.read_apply]
  show V c main_v15 _ = V c main_v15 k
  congr 1
  funext a; apply Fin.ext
  match a with
  | ⟨0, _⟩ => show win1_1.index t 0 * 4000 + 1 * (y 0).val = (k 0).val; rw [e0, h0]; omega
  | ⟨1, _⟩ => show win1_1.index t 1 * 8 + 1 * (y 1).val = (k 1).val; rw [e1, h1]; omega

/-- The first weight matrix is loaded whole at every point. -/
theorem blk2_apply (c : Dev nD) (t : Fin cfg1.N) (y : S8x8.Idx) :
    (iblk1 V c 2 t : Vec Ideal S8x8 .f32) y = (V c main_arg6 : S8x8.Idx → EReal) y := by
  obtain ⟨-, -, -, -, e0, e1, -⟩ := idx_facts t
  unfold iblk1
  rw [View.read_apply]
  show V c main_arg6 _ = V c main_arg6 y
  congr 1
  funext a; apply Fin.ext
  match a with
  | ⟨0, _⟩ => show win1_2.index t 0 * 8 + 1 * (y 0).val = (y 0).val; rw [e0]; omega
  | ⟨1, _⟩ => show win1_2.index t 1 * 8 + 1 * (y 1).val = (y 1).val; rw [e1]; omega

/-- The bias row is loaded whole at every point. -/
theorem blk3_apply (c : Dev nD) (t : Fin cfg1.N) (y : S1x8.Idx) :
    (iblk1 V c 3 t : Vec Ideal S1x8 .f32) y = (V c main_v26 : S1x8.Idx → EReal) y := by
  obtain ⟨-, -, -, -, -, -, e0, e1, -⟩ := idx_facts t
  unfold iblk1
  rw [View.read_apply]
  show V c main_v26 _ = V c main_v26 y
  congr 1
  funext a; apply Fin.ext
  match a with
  | ⟨0, _⟩ => show win1_3.index t 0 * 1 + 1 * (y 0).val = (y 0).val; rw [e0]; omega
  | ⟨1, _⟩ => show win1_3.index t 1 * 8 + 1 * (y 1).val = (y 1).val; rw [e1]; omega

/-- The second weight matrix is loaded whole at every point. -/
theorem blk4_apply (c : Dev nD) (t : Fin cfg1.N) (y : S8x8.Idx) :
    (iblk1 V c 4 t : Vec Ideal S8x8 .f32) y = (V c main_arg8 : S8x8.Idx → EReal) y := by
  obtain ⟨-, -, -, -, -, -, -, -, e0, e1, -⟩ := idx_facts t
  unfold iblk1
  rw [View.read_apply]
  show V c main_arg8 _ = V c main_arg8 y
  congr 1
  funext a; apply Fin.ext
  match a with
  | ⟨0, _⟩ => show win1_4.index t 0 * 8 + 1 * (y 0).val = (y 0).val; rw [e0]; omega
  | ⟨1, _⟩ => show win1_4.index t 1 * 8 + 1 * (y 1).val = (y 1).val; rw [e1]; omega

/-- The layer on the whole arrays the region finds. -/
abbrev whole (c : Dev nD) : S200000x8.Idx → EReal :=
  layerAct (V c main_v25 : S200000x8.Idx → EReal) (V c main_v15 : S200000x8.Idx → EReal)
    (V c main_arg6 : S8x8.Idx → EReal) (V c main_arg8 : S8x8.Idx → EReal)
    (fun q => (V c main_v26 : S1x8.Idx → EReal) (ix2 (0 : Fin 1) q))

/-- What point t writes back is block t of the whole-array layer. -/
theorem flushed_eq (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero hz]
  simp only [View.ld_unit_zero (S := S4000x8) hz, View.ld_unit_zero (S := S8x8) hz, View.ld_unit_zero (S := S1x8) hz]
  obtain ⟨-, -, -, -, -, -, -, -, -, -, e0, e1⟩ := idx_facts t
  funext j
  obtain ⟨p, q, rfl⟩ : ∃ (p : Fin 4000) (q : Fin 8), j = ix2 p q := ⟨j 0, j 1, eq_ix2 j⟩
  show k1_pay1 (iblk1 V c 0 t) (iblk1 V c 1 t) (iblk1 V c 2 t) (iblk1 V c 4 t) (iblk1 V c 3 t) (ix2 p q)
    = whole V c (((cfg1.win 5).blk t).view.emb (ix2 p q))
  refine (pay_at _ _ _ _ _ p q).trans (congrArg act ?_)
  have hr : ((((cfg1.win 5).blk t).view.emb (ix2 p q)) 0).val = t.val * 4000 + p.val := by
    show win1_5.index t 0 * 4000 + 1 * p.val = _; rw [e0]; omega
  have hc : ((((cfg1.win 5).blk t).view.emb (ix2 p q)) 1).val = q.val := by
    show win1_5.index t 1 * 8 + 1 * q.val = _; rw [e1]; omega
  refine lin_congr _ _ _ _ _ _ _ _ _ _ p _ q _ ?_ ?_ ?_ ?_ ?_
  · exact fun k => blk0_apply V c t (ix2 p k) _ hr rfl
  · exact fun k => blk1_apply V c t (ix2 p k) _ hr rfl
  · exact fun k => (blk2_apply V c t (ix2 k q)).trans (congrArg _ (funext fun a => Fin.ext (by
      match a with
      | ⟨0, _⟩ => rfl
      | ⟨1, _⟩ => exact hc.symm)))
  · exact fun k => (blk4_apply V c t (ix2 k q)).trans (congrArg _ (funext fun a => Fin.ext (by
      match a with
      | ⟨0, _⟩ => rfl
      | ⟨1, _⟩ => exact hc.symm)))
  · exact (blk3_apply V c t (ix2 (0 : Fin 1) q)).trans (congrArg _ (funext fun a => Fin.ext (by
      match a with
      | ⟨0, _⟩ => rfl
      | ⟨1, _⟩ => exact hc.symm)))

/-- An index is in point t's block iff its row is among the block's 4000. -/
theorem mem_blk (t : Fin cfg1.N) (i : S200000x8.Idx) :
    i ∈ ((cfg1.win 5).blk t).view.set ↔ ∀ a : Fin 2, win1_5.index t a * S4000x8.size a ≤ (i a).val ∧ (i a).val < win1_5.index t a * S4000x8.size a + S4000x8.size a := by
  show i ∈ ((View.whole main_v27).slice (win1_5.rect t)).set ↔ _
  rw [View.set_slice_whole, Rect.mem_set_unit]
  exact Iff.rfl

/-- The 50 blocks cover the output: row ρ is in block ρ / 4000. -/
theorem cover (i : S200000x8.Idx) : ∃ t : Fin cfg1.N, (cfg1.win 5).flush t = true ∧ i ∈ ((cfg1.win 5).blk t).view.set := by
  have hi0 : (i 0).val < 200000 := (i 0).isLt
  have hi1 : (i 1).val < 8 := (i 1).isLt
  have hN : cfg1.N = 50 := N_1
  refine ⟨⟨(i 0).val / 4000, by rw [hN]; omega⟩, flush1_5 _, ?_⟩
  rw [mem_blk]
  obtain ⟨-, -, -, -, -, -, -, -, -, -, e0, e1⟩ := idx_facts ⟨(i 0).val / 4000, by rw [hN]; omega⟩
  intro a
  match a with
  | ⟨0, _⟩ => show win1_5.index _ 0 * 4000 ≤ (i 0).val ∧ (i 0).val < win1_5.index _ 0 * 4000 + 4000; rw [e0]; show (i 0).val / 4000 * 4000 ≤ _ ∧ _ < (i 0).val / 4000 * 4000 + 4000; omega
  | ⟨1, _⟩ => show win1_5.index _ 1 * 8 ≤ (i 1).val ∧ (i 1).val < win1_5.index _ 1 * 8 + 8; rw [e1]; omega

/-- The output array the region leaves is the layer of the arrays it found. -/
theorem arr_eq (c : Dev nD) : (dat1 V c).arrAt 5 cfg1.N = whole V c :=
  (dat1 V c).arrAt_eq_of_cover 5 (whole V c) (fun t _ => flushed_eq V c t) (cover)

end Cert.KernelIdeal.Layer1

end
-- ==== Proof.Region2.lean ====
/-
  The third layer's kernel region, read as one whole-array function.

  As in the second layer, without the activation: at grid point t the region loads rows 4000·t … 4000·t + 3999 of the
  neighbour sums and of the previous layer's output, the two 8×8 weight matrices and the 1×8 bias row whole, and stores
  a·w + x·r + b into the same rows of its output. Block t of the output is block t of the layer computed on the whole
  arrays, the 50 blocks tile the output, and the array the region leaves is the whole-array layer of the arrays it found.
-/
import proofs.«142039_j27908697490049_1_alg».proof.Proof.Gen.KernelIdeal.Frame
import proofs.«142039_j27908697490049_1_alg».proof.Proof.Dense
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Layer2

open Cert.KernelIdeal Cert.KernelIdeal.Gen Cert.GraphConv Cert.PlainDot

variable (V : (c : Dev nD) → (b : Ref sig .tc) → Buf (Elt Ideal) ((c : Thread nD τ).loc b))

theorem hz : (![0, 0] : Fin 2 → Nat) = fun _ => 0 := funext fun a => by fin_cases a <;> rfl

/-- The block's contraction is the plain one: rows by the shared axis, the shared axis by columns. -/
theorem plain : IsPlain (dot_S4000x8_S8x8_S4000x8_1_0_0_1_n_n : Dot2 4000 8 8) := ⟨rfl, rfl, rfl, rfl, rfl, rfl⟩

/-- What the body stores, at an entry of the block: the two products' sum plus the bias. -/
theorem pay_at (x0 x1 : Vec Ideal S4000x8 .f32) (w r : Vec Ideal S8x8 .f32) (b2 : Vec Ideal S1x8 .f32) (p : Fin 4000) (q : Fin 8) :
    k2_pay1 (F := Ideal) x0 x1 w r b2 (ix2 p q) = lin x0 x1 w r (fun q => b2 (ix2 (0 : Fin 1) q)) p q := by
  unfold k2_pay1
  simp only [shapeCast_self]
  exact kernel_at dot_S4000x8_S8x8_S4000x8_1_0_0_1_n_n plain broadcasts_S1x8_S4000x8
    (truncf .bf16 x0 bitsLt_bf16_f32) (truncf .bf16 x1 bitsLt_bf16_f32) (truncf .bf16 w bitsLt_bf16_f32)
    (truncf .bf16 r bitsLt_bf16_f32) b2 p q

/-- The printed index maps over the grid: the two row windows and the output move with the point; the weights and the
    bias row stay at the origin. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Block t of the neighbour sums is their rows 4000·t …. -/
theorem blk0_apply (c : Dev nD) (t : Fin cfg2.N) (y : S4000x8.Idx) (k : S200000x8.Idx)
    (h0 : (k 0).val = t.val * 4000 + (y 0).val) (h1 : (k 1).val = (y 1).val) :
    (iblk2 V c 0 t : Vec Ideal S4000x8 .f32) y = (V c main_v37 : S200000x8.Idx → EReal) k := by
  obtain ⟨e0, e1, -⟩ := idx_facts t
  unfold iblk2
  rw [View.read_apply]
  show V c main_v37 _ = V c main_v37 k
  congr 1
  funext a; apply Fin.ext
  match a with
  | ⟨0, _⟩ => show win2_0.index t 0 * 4000 + 1 * (y 0).val = (k 0).val; rw [e0, h0]; omega
  | ⟨1, _⟩ => show win2_0.index t 1 * 8 + 1 * (y 1).val = (k 1).val; rw [e1, h1]; omega

/-- Block t of the node features is their rows 4000·t …. -/
theorem blk1_apply (c : Dev nD) (t : Fin cfg2.N) (y : S4000x8.Idx) (k : S200000x8.Idx)
    (h0 : (k 0).val = t.val * 4000 + (y 0).val) (h1 : (k 1).val = (y 1).val) :
    (iblk2 V c 1 t : Vec Ideal S4000x8 .f32) y = (V c main_v27 : S200000x8.Idx → EReal) k := by
  obtain ⟨-, -, e0, e1, -⟩ := idx_facts t
  unfold iblk2
  rw [View.read_apply]
  show V c main_v27 _ = V c main_v27 k
  congr 1
  funext a; apply Fin.ext
  match a with
  | ⟨0, _⟩ => show win2_1.index t 0 * 4000 + 1 * (y 0).val = (k 0).val; rw [e0, h0]; omega
  | ⟨1, _⟩ => show win2_1.index t 1 * 8 + 1 * (y 1).val = (k 1).val; rw [e1, h1]; omega

/-- The first weight matrix is loaded whole at every point. -/
theorem blk2_apply (c : Dev nD) (t : Fin cfg2.N) (y : S8x8.Idx) :
    (iblk2 V c 2 t : Vec Ideal S8x8 .f32) y = (V c main_arg9 : S8x8.Idx → EReal) y := by
  obtain ⟨-, -, -, -, e0, e1, -⟩ := idx_facts t
  unfold iblk2
  rw [View.read_apply]
  show V c main_arg9 _ = V c main_arg9 y
  congr 1
  funext a; apply Fin.ext
  match a with
  | ⟨0, _⟩ => show win2_2.index t 0 * 8 + 1 * (y 0).val = (y 0).val; rw [e0]; omega
  | ⟨1, _⟩ => show win2_2.index t 1 * 8 + 1 * (y 1).val = (y 1).val; rw [e1]; omega

/-- The bias row is loaded whole at every point. -/
theorem blk3_apply (c : Dev nD) (t : Fin cfg2.N) (y : S1x8.Idx) :
    (iblk2 V c 3 t : Vec Ideal S1x8 .f32) y = (V c main_v38 : S1x8.Idx → EReal) y := by
  obtain ⟨-, -, -, -, -, -, e0, e1, -⟩ := idx_facts t
  unfold iblk2
  rw [View.read_apply]
  show V c main_v38 _ = V c main_v38 y
  congr 1
  funext a; apply Fin.ext
  match a with
  | ⟨0, _⟩ => show win2_3.index t 0 * 1 + 1 * (y 0).val = (y 0).val; rw [e0]; omega
  | ⟨1, _⟩ => show win2_3.index t 1 * 8 + 1 * (y 1).val = (y 1).val; rw [e1]; omega

/-- The second weight matrix is loaded whole at every point. -/
theorem blk4_apply (c : Dev nD) (t : Fin cfg2.N) (y : S8x8.Idx) :
    (iblk2 V c 4 t : Vec Ideal S8x8 .f32) y = (V c main_arg11 : S8x8.Idx → EReal) y := by
  obtain ⟨-, -, -, -, -, -, -, -, e0, e1, -⟩ := idx_facts t
  unfold iblk2
  rw [View.read_apply]
  show V c main_arg11 _ = V c main_arg11 y
  congr 1
  funext a; apply Fin.ext
  match a with
  | ⟨0, _⟩ => show win2_4.index t 0 * 8 + 1 * (y 0).val = (y 0).val; rw [e0]; omega
  | ⟨1, _⟩ => show win2_4.index t 1 * 8 + 1 * (y 1).val = (y 1).val; rw [e1]; omega

/-- The layer on the whole arrays the region finds. -/
abbrev whole (c : Dev nD) : S200000x8.Idx → EReal :=
  layer (V c main_v37 : S200000x8.Idx → EReal) (V c main_v27 : S200000x8.Idx → EReal)
    (V c main_arg9 : S8x8.Idx → EReal) (V c main_arg11 : S8x8.Idx → EReal)
    (fun q => (V c main_v38 : S1x8.Idx → EReal) (ix2 (0 : Fin 1) q))

/-- What point t writes back is block t of the whole-array layer. -/
theorem flushed_eq (c : Dev nD) (t : Fin cfg2.N) :
    (dat2 V c).flushed 5 t = ((cfg2.win 5).blk t).view.read (Elt Ideal) (whole V c) := by
  show (cfg2.win 5).cut (grid2.coords t) ((dat2 V c).after 5 t) = _
  rw [after2_5]
  unfold out2_5
  rw [View.canon_unit_zero hz]
  simp only [View.ld_unit_zero (S := S4000x8) hz, View.ld_unit_zero (S := S8x8) hz, View.ld_unit_zero (S := S1x8) hz]
  obtain ⟨-, -, -, -, -, -, -, -, -, -, e0, e1⟩ := idx_facts t
  funext j
  obtain ⟨p, q, rfl⟩ : ∃ (p : Fin 4000) (q : Fin 8), j = ix2 p q := ⟨j 0, j 1, eq_ix2 j⟩
  show k2_pay1 (iblk2 V c 0 t) (iblk2 V c 1 t) (iblk2 V c 2 t) (iblk2 V c 4 t) (iblk2 V c 3 t) (ix2 p q)
    = whole V c (((cfg2.win 5).blk t).view.emb (ix2 p q))
  refine (pay_at _ _ _ _ _ p q).trans ?_
  have hr : ((((cfg2.win 5).blk t).view.emb (ix2 p q)) 0).val = t.val * 4000 + p.val := by
    show win2_5.index t 0 * 4000 + 1 * p.val = _; rw [e0]; omega
  have hc : ((((cfg2.win 5).blk t).view.emb (ix2 p q)) 1).val = q.val := by
    show win2_5.index t 1 * 8 + 1 * q.val = _; rw [e1]; omega
  refine lin_congr _ _ _ _ _ _ _ _ _ _ p _ q _ ?_ ?_ ?_ ?_ ?_
  · exact fun k => blk0_apply V c t (ix2 p k) _ hr rfl
  · exact fun k => blk1_apply V c t (ix2 p k) _ hr rfl
  · exact fun k => (blk2_apply V c t (ix2 k q)).trans (congrArg _ (funext fun a => Fin.ext (by
      match a with
      | ⟨0, _⟩ => rfl
      | ⟨1, _⟩ => exact hc.symm)))
  · exact fun k => (blk4_apply V c t (ix2 k q)).trans (congrArg _ (funext fun a => Fin.ext (by
      match a with
      | ⟨0, _⟩ => rfl
      | ⟨1, _⟩ => exact hc.symm)))
  · exact (blk3_apply V c t (ix2 (0 : Fin 1) q)).trans (congrArg _ (funext fun a => Fin.ext (by
      match a with
      | ⟨0, _⟩ => rfl
      | ⟨1, _⟩ => exact hc.symm)))

/-- An index is in point t's block iff its row is among the block's 4000. -/
theorem mem_blk (t : Fin cfg2.N) (i : S200000x8.Idx) :
    i ∈ ((cfg2.win 5).blk t).view.set ↔ ∀ a : Fin 2, win2_5.index t a * S4000x8.size a ≤ (i a).val ∧ (i a).val < win2_5.index t a * S4000x8.size a + S4000x8.size a := by
  show i ∈ ((View.whole main_v39).slice (win2_5.rect t)).set ↔ _
  rw [View.set_slice_whole, Rect.mem_set_unit]
  exact Iff.rfl

/-- The 50 blocks cover the output: row ρ is in block ρ / 4000. -/
theorem cover (i : S200000x8.Idx) : ∃ t : Fin cfg2.N, (cfg2.win 5).flush t = true ∧ i ∈ ((cfg2.win 5).blk t).view.set := by
  have hi0 : (i 0).val < 200000 := (i 0).isLt
  have hi1 : (i 1).val < 8 := (i 1).isLt
  have hN : cfg2.N = 50 := N_2
  refine ⟨⟨(i 0).val / 4000, by rw [hN]; omega⟩, flush2_5 _, ?_⟩
  rw [mem_blk]
  obtain ⟨-, -, -, -, -, -, -, -, -, -, e0, e1⟩ := idx_facts ⟨(i 0).val / 4000, by rw [hN]; omega⟩
  intro a
  match a with
  | ⟨0, _⟩ => show win2_5.index _ 0 * 4000 ≤ (i 0).val ∧ (i 0).val < win2_5.index _ 0 * 4000 + 4000; rw [e0]; show (i 0).val / 4000 * 4000 ≤ _ ∧ _ < (i 0).val / 4000 * 4000 + 4000; omega
  | ⟨1, _⟩ => show win2_5.index _ 1 * 8 ≤ (i 1).val ∧ (i 1).val < win2_5.index _ 1 * 8 + 8; rw [e1]; omega

/-- The output array the region leaves is the layer of the arrays it found. -/
theorem arr_eq (c : Dev nD) : (dat2 V c).arrAt 5 cfg2.N = whole V c :=
  (dat2 V c).arrAt_eq_of_cover 5 (whole V c) (fun t _ => flushed_eq V c t) (cover)

end Cert.KernelIdeal.Layer2

end
-- ==== Proof.Spec.lean ====
/-
  The whole computation as one function of the fourteen arguments.

  Three graph-convolution layers — neighbour sums over the edge list, then the dense part a·w + b + x·r, the first two
  followed by the activation — and a mean pool over the graphs with a last linear map. The reference program spells the
  dense part with two host products and a broadcast bias (`R.spec`); the kernel program computes it block by block, which
  as a whole-array function is `layer` / `layerAct` of Dense.lean (`specK`). Everything else — the edge rows, the gather
  and scatter indices, the neighbour sums, the pooling tail — is the same host text in both programs, kept folded here
  as named functions and never opened. The two specifications are one function: entry by entry the host's dense part is
  `lin`, by regrouping a three-term sum.
-/
import proofs.«142039_j27908697490049_1_alg».proof.Proof.Gen.KernelIdeal
import proofs.«142039_j27908697490049_1_alg».proof.Proof.Gen.ReferenceIdeal
import proofs.«142039_j27908697490049_1_alg».proof.Proof.Dense

noncomputable section
open scoped BigOperators

/-! ## The reference program's spelling -/

namespace Cert.GraphConv.R

open Cert.ReferenceIdeal Cert.ReferenceIdeal.Facts₀ Cert.ReferenceIdeal.Facts Idealize.ShloMosaic

variable {F : FTy → Type} [FloatOps F]

/-- Row 0 of the edge list: every edge's source node. -/
def row0 (ei : IVec S2x6400000 32) : IVec S6400000 32 :=
  shapeCast S6400000 (extractStridedSlice S1x6400000 ![0, 0] ei slices_S2x6400000_S1x6400000_0_0) shapeCasts_S1x6400000_S6400000

/-- Row 1 of the edge list: every edge's destination node. -/
def row1 (ei : IVec S2x6400000 32) : IVec S6400000 32 :=
  shapeCast S6400000 (extractStridedSlice S1x6400000 ![1, 0] ei slices_S2x6400000_S1x6400000_1_0) shapeCasts_S1x6400000_S6400000

/-- The gather's index column: the source node, a negative one wrapped round by the node count. -/
def srcIdx (s : IVec S6400000 32) : IVec S6400000x1 32 :=
  broadcastInDim S6400000x1 ![0] bcast_S6400000_S6400000x1_0
    (select (cmpi .slt s (broadcastInDim S6400000 ![] bcast_S_S6400000 (constantI S_ 32 0#32)))
      (addi s (broadcastInDim S6400000 ![] bcast_S_S6400000 (constantI S_ 32 200000#32))) s)

/-- The scatter's index column: the destination node. -/
def dstIdx (d : IVec S6400000 32) : IVec S6400000x1 32 :=
  broadcastInDim S6400000x1 ![0] bcast_S6400000_S6400000x1_0 d

/-- Neighbour sums of 7-wide rows: every edge adds its source's row into its destination's row, from zero. -/
def agg7 (x : FVec F S200000x7 .f32) (ei : IVec S2x6400000 32) : FVec F S200000x7 .f32 :=
  Host.scatterAdd scatter_S200000x7_S6400000x1_S6400000x7_1_0_0_1
    (broadcastInDim S200000x7 ![] bcast_S_S200000x7 (constant S_ .f32 0x00000000#32)) (dstIdx (row1 ei))
    (Host.gather gather_S200000x7_S6400000x1_S6400000x7_1_0_n_n_0_1_17 x (srcIdx (row0 ei)))

/-- Neighbour sums of 8-wide rows. -/
def agg8 (h : FVec F S200000x8 .f32) (ei : IVec S2x6400000 32) : FVec F S200000x8 .f32 :=
  Host.scatterAdd scatter_S200000x8_S6400000x1_S6400000x8_1_0_0_1
    (broadcastInDim S200000x8 ![] bcast_S_S200000x8 (constant S_ .f32 0x00000000#32)) (dstIdx (row1 ei))
    (Host.gather gather_S200000x8_S6400000x1_S6400000x8_1_0_n_n_0_1_18 h (srcIdx (row0 ei)))

/-- The tail: per-graph sums of the node rows divided by max(node count, 1), then the last linear map and its bias. -/
def pool (h : FVec F S200000x8 .f32) (bt : IVec S200000 32) (lw : FVec F S8x3 .f32) (lb : FVec F S3 .f32) : FVec F S1000x3 .f32 :=
  addf (Host.dotGeneral dot_S1000x8_S8x3_S1000x3_1_0_0_1_n_n none
      (Host.divf
        (Host.scatterAdd scatter_S1000x8_S200000x1_S200000x8_1_0_0_1
          (broadcastInDim S1000x8 ![] bcast_S_S1000x8 (constant S_ .f32 0x00000000#32))
          (broadcastInDim S200000x1 ![0] bcast_S200000_S200000x1_0 bt) h)
        (broadcastInDim S1000x8 ![0, 1] bcast_S1000x1_S1000x8_0_1 (broadcastInDim S1000x1 ![0] bcast_S1000_S1000x1_0
          (maximumf
            (Host.scatterAdd scatter_S1000_S200000x1_S200000_n_0_0_1
              (broadcastInDim S1000 ![] bcast_S_S1000 (constant S_ .f32 0x00000000#32))
              (broadcastInDim S200000x1 ![0] bcast_S200000_S200000x1_0 bt)
              (broadcastInDim S200000 ![] bcast_S_S200000 (constant S_ .f32 0x3F800000#32)))
            (broadcastInDim S1000 ![] bcast_S_S1000 (constant S_ .f32 0x3F800000#32))))))
      lw)
    (broadcastInDim S1000x3 ![0, 1] bcast_S1x3_S1000x3_0_1 (broadcastInDim S1x3 ![1] bcast_S3_S1x3_1 lb))

/-- The first layer's dense part as the host spells it: (a·w + b) + x·r. -/
def dense7 (a x : FVec F S200000x7 .f32) (w : FVec F S7x8 .f32) (b : FVec F S8 .f32) (r : FVec F S7x8 .f32) : FVec F S200000x8 .f32 :=
  addf (addf (Host.dotGeneral dot_S200000x7_S7x8_S200000x8_1_0_0_1_n_n none a w)
      (broadcastInDim S200000x8 ![0, 1] bcast_S1x8_S200000x8_0_1 (broadcastInDim S1x8 ![1] bcast_S8_S1x8_1 b)))
    (Host.dotGeneral dot_S200000x7_S7x8_S200000x8_1_0_0_1_n_n none x r)

/-- The later layers' dense part as the host spells it. -/
def dense8 (a x : FVec F S200000x8 .f32) (w : FVec F S8x8 .f32) (b : FVec F S8 .f32) (r : FVec F S8x8 .f32) : FVec F S200000x8 .f32 :=
  addf (addf (Host.dotGeneral dot_S200000x8_S8x8_S200000x8_1_0_0_1_n_n none a w)
      (broadcastInDim S200000x8 ![0, 1] bcast_S1x8_S200000x8_0_1 (broadcastInDim S1x8 ![1] bcast_S8_S1x8_1 b)))
    (Host.dotGeneral dot_S200000x8_S8x8_S200000x8_1_0_0_1_n_n none x r)

/-- The activation as the host spells it: keep where ≥ 0, scale elsewhere. -/
def leaky (h : FVec F S200000x8 .f32) : FVec F S200000x8 .f32 :=
  select (cmpf .oge h (broadcastInDim S200000x8 ![] bcast_S_S200000x8 (constant S_ .f32 0x00000000#32))) h
    (mulf (broadcastInDim S200000x8 ![] bcast_S_S200000x8 (constant S_ .f32 0x3C23D70A#32)) h)

/-- The reference program's result as a function of its arguments. -/
def spec (x : FVec F S200000x7 .f32) (ei : IVec S2x6400000 32) (bt : IVec S200000 32)
    (w1 : FVec F S7x8 .f32) (b1 : FVec F S8 .f32) (r1 : FVec F S7x8 .f32)
    (w2 : FVec F S8x8 .f32) (b2 : FVec F S8 .f32) (r2 : FVec F S8x8 .f32)
    (w3 : FVec F S8x8 .f32) (b3 : FVec F S8 .f32) (r3 : FVec F S8x8 .f32)
    (lw : FVec F S8x3 .f32) (lb : FVec F S3 .f32) : FVec F S1000x3 .f32 :=
  let h1 := leaky (dense7 (agg7 x ei) x w1 b1 r1)
  let h2 := leaky (dense8 (agg8 h1 ei) h1 w2 b2 r2)
  pool (dense8 (agg8 h2 ei) h2 w3 b3 r3) bt lw lb

end Cert.GraphConv.R

/-! ## The kernel program's host pieces, and the result with the dense parts as whole-array layers -/

namespace Cert.GraphConv.K

open Cert.KernelIdeal Cert.KernelIdeal.Facts₀ Cert.KernelIdeal.Facts Idealize.ShloMosaic Idealize.ShloMosaic.ValueIdx

variable {F : FTy → Type} [FloatOps F]

/-- Row 0 of the edge list: every edge's source node. -/
def row0 (ei : IVec S2x6400000 32) : IVec S6400000 32 :=
  shapeCast S6400000 (extractStridedSlice S1x6400000 ![0, 0] ei slices_S2x6400000_S1x6400000_0_0) shapeCasts_S1x6400000_S6400000

/-- Row 1 of the edge list: every edge's destination node. -/
def row1 (ei : IVec S2x6400000 32) : IVec S6400000 32 :=
  shapeCast S6400000 (extractStridedSlice S1x6400000 ![1, 0] ei slices_S2x6400000_S1x6400000_1_0) shapeCasts_S1x6400000_S6400000

/-- The gather's index column: the source node, a negative one wrapped round by the node count. -/
def srcIdx (s : IVec S6400000 32) : IVec S6400000x1 32 :=
  broadcastInDim S6400000x1 ![0] bcast_S6400000_S6400000x1_0
    (select (cmpi .slt s (broadcastInDim S6400000 ![] bcast_S_S6400000 (constantI S_ 32 0#32)))
      (addi s (broadcastInDim S6400000 ![] bcast_S_S6400000 (constantI S_ 32 200000#32))) s)

/-- The scatter's index column: the destination node. -/
def dstIdx (d : IVec S6400000 32) : IVec S6400000x1 32 :=
  broadcastInDim S6400000x1 ![0] bcast_S6400000_S6400000x1_0 d

/-- Neighbour sums of 7-wide rows: every edge adds its source's row into its destination's row, from zero. -/
def agg7 (x : FVec F S200000x7 .f32) (ei : IVec S2x6400000 32) : FVec F S200000x7 .f32 :=
  Host.scatterAdd scatter_S200000x7_S6400000x1_S6400000x7_1_0_0_1
    (broadcastInDim S200000x7 ![] bcast_S_S200000x7 (constant S_ .f32 0x00000000#32)) (dstIdx (row1 ei))
    (Host.gather gather_S200000x7_S6400000x1_S6400000x7_1_0_n_n_0_1_17 x (srcIdx (row0 ei)))

/-- Neighbour sums of 8-wide rows. -/
def agg8 (h : FVec F S200000x8 .f32) (ei : IVec S2x6400000 32) : FVec F S200000x8 .f32 :=
  Host.scatterAdd scatter_S200000x8_S6400000x1_S6400000x8_1_0_0_1
    (broadcastInDim S200000x8 ![] bcast_S_S200000x8 (constant S_ .f32 0x00000000#32)) (dstIdx (row1 ei))
    (Host.gather gather_S200000x8_S6400000x1_S6400000x8_1_0_n_n_0_1_18 h (srcIdx (row0 ei)))

/-- The tail: per-graph sums of the node rows divided by max(node count, 1), then the last linear map and its bias. -/
def pool (h : FVec F S200000x8 .f32) (bt : IVec S200000 32) (lw : FVec F S8x3 .f32) (lb : FVec F S3 .f32) : FVec F S1000x3 .f32 :=
  addf (Host.dotGeneral dot_S1000x8_S8x3_S1000x3_1_0_0_1_n_n none
      (Host.divf
        (Host.scatterAdd scatter_S1000x8_S200000x1_S200000x8_1_0_0_1
          (broadcastInDim S1000x8 ![] bcast_S_S1000x8 (constant S_ .f32 0x00000000#32))
          (broadcastInDim S200000x1 ![0] bcast_S200000_S200000x1_0 bt) h)
        (broadcastInDim S1000x8 ![0, 1] bcast_S1000x1_S1000x8_0_1 (broadcastInDim S1000x1 ![0] bcast_S1000_S1000x1_0
          (maximumf
            (Host.scatterAdd scatter_S1000_S200000x1_S200000_n_0_0_1
              (broadcastInDim S1000 ![] bcast_S_S1000 (constant S_ .f32 0x00000000#32))
              (broadcastInDim S200000x1 ![0] bcast_S200000_S200000x1_0 bt)
              (broadcastInDim S200000 ![] bcast_S_S200000 (constant S_ .f32 0x3F800000#32)))
            (broadcastInDim S1000 ![] bcast_S_S1000 (constant S_ .f32 0x3F800000#32))))))
      lw)
    (broadcastInDim S1000x3 ![0, 1] bcast_S1x3_S1000x3_0_1 (broadcastInDim S1x3 ![1] bcast_S3_S1x3_1 lb))

/-- A bias vector's entries. -/
def bias (b : FVec Ideal S8 .f32) : Fin 8 → EReal := fun q => b (ix1 q)

/-- The kernel program's result as a function of its arguments, each region's output as the layer of the whole arrays. -/
def spec (x : FVec Ideal S200000x7 .f32) (ei : IVec S2x6400000 32) (bt : IVec S200000 32)
    (w1 : FVec Ideal S7x8 .f32) (b1 : FVec Ideal S8 .f32) (r1 : FVec Ideal S7x8 .f32)
    (w2 : FVec Ideal S8x8 .f32) (b2 : FVec Ideal S8 .f32) (r2 : FVec Ideal S8x8 .f32)
    (w3 : FVec Ideal S8x8 .f32) (b3 : FVec Ideal S8 .f32) (r3 : FVec Ideal S8x8 .f32)
    (lw : FVec Ideal S8x3 .f32) (lb : FVec Ideal S3 .f32) : FVec Ideal S1000x3 .f32 :=
  let h1 : FVec Ideal S200000x8 .f32 := Cert.GraphConv.layerAct (agg7 (F := Ideal) x ei) x w1 r1 (bias b1)
  let h2 : FVec Ideal S200000x8 .f32 := Cert.GraphConv.layerAct (agg8 (F := Ideal) h1 ei) h1 w2 r2 (bias b2)
  pool (F := Ideal) (Cert.GraphConv.layer (agg8 (F := Ideal) h2 ei) h2 w3 r3 (bias b3)) bt lw lb

end Cert.GraphConv.K

/-! ## The two are one function -/

namespace Cert.GraphConv

open Idealize.ShloMosaic Idealize.ShloMosaic.ValueIdx Cert.PlainDot

theorem plain7 : IsPlain (Cert.ReferenceIdeal.dot_S200000x7_S7x8_S200000x8_1_0_0_1_n_n : Dot2 200000 7 8) := ⟨rfl, rfl, rfl, rfl, rfl, rfl⟩
theorem plain8 : IsPlain (Cert.ReferenceIdeal.dot_S200000x8_S8x8_S200000x8_1_0_0_1_n_n : Dot2 200000 8 8) := ⟨rfl, rfl, rfl, rfl, rfl, rfl⟩

/-- The host's activated first layer is the whole-array layer with the activation. -/
theorem leaky_dense7 (a x : FVec Ideal Cert.ReferenceIdeal.S200000x7 .f32) (w : FVec Ideal Cert.ReferenceIdeal.S7x8 .f32)
    (b : FVec Ideal Cert.ReferenceIdeal.S8 .f32) (r : FVec Ideal Cert.ReferenceIdeal.S7x8 .f32) :
    R.leaky (R.dense7 a x w b r) = layerAct a x w r (K.bias b) := by
  funext i
  obtain ⟨p, q, rfl⟩ : ∃ (p : Fin 200000) (q : Fin 8), i = ix2 p q := ⟨i 0, i 1, eq_ix2 i⟩
  exact congrArg act (host_at _ plain7 Cert.ReferenceIdeal.Facts₀.bcast_S8_S1x8_1 Cert.ReferenceIdeal.Facts₀.bcast_S1x8_S200000x8_0_1 a x w r b p q)

/-- The host's activated later layer is the whole-array layer with the activation. -/
theorem leaky_dense8 (a x : FVec Ideal Cert.ReferenceIdeal.S200000x8 .f32) (w : FVec Ideal Cert.ReferenceIdeal.S8x8 .f32)
    (b : FVec Ideal Cert.ReferenceIdeal.S8 .f32) (r : FVec Ideal Cert.ReferenceIdeal.S8x8 .f32) :
    R.leaky (R.dense8 a x w b r) = layerAct a x w r (K.bias b) := by
  funext i
  obtain ⟨p, q, rfl⟩ : ∃ (p : Fin 200000) (q : Fin 8), i = ix2 p q := ⟨i 0, i 1, eq_ix2 i⟩
  exact congrArg act (host_at _ plain8 Cert.ReferenceIdeal.Facts₀.bcast_S8_S1x8_1 Cert.ReferenceIdeal.Facts₀.bcast_S1x8_S200000x8_0_1 a x w r b p q)

/-- The host's last layer, with no activation, is the whole-array layer. -/
theorem dense8_eq (a x : FVec Ideal Cert.ReferenceIdeal.S200000x8 .f32) (w : FVec Ideal Cert.ReferenceIdeal.S8x8 .f32)
    (b : FVec Ideal Cert.ReferenceIdeal.S8 .f32) (r : FVec Ideal Cert.ReferenceIdeal.S8x8 .f32) :
    R.dense8 a x w b r = layer a x w r (K.bias b) := by
  funext i
  obtain ⟨p, q, rfl⟩ : ∃ (p : Fin 200000) (q : Fin 8), i = ix2 p q := ⟨i 0, i 1, eq_ix2 i⟩
  exact host_at _ plain8 Cert.ReferenceIdeal.Facts₀.bcast_S8_S1x8_1 Cert.ReferenceIdeal.Facts₀.bcast_S1x8_S200000x8_0_1 a x w r b p q

/-- The shared host pieces are the same functions in the two programs' vocabularies. -/
theorem agg7_eq (x : FVec Ideal Cert.ReferenceIdeal.S200000x7 .f32) (ei : IVec Cert.ReferenceIdeal.S2x6400000 32) :
    R.agg7 (F := Ideal) x ei = K.agg7 (F := Ideal) x ei := rfl
theorem agg8_eq (h : FVec Ideal Cert.ReferenceIdeal.S200000x8 .f32) (ei : IVec Cert.ReferenceIdeal.S2x6400000 32) :
    R.agg8 (F := Ideal) h ei = K.agg8 (F := Ideal) h ei := rfl
theorem pool_eq (h : FVec Ideal Cert.ReferenceIdeal.S200000x8 .f32) (bt : IVec Cert.ReferenceIdeal.S200000 32)
    (lw : FVec Ideal Cert.ReferenceIdeal.S8x3 .f32) (lb : FVec Ideal Cert.ReferenceIdeal.S3 .f32) :
    R.pool (F := Ideal) h bt lw lb = K.pool (F := Ideal) h bt lw lb := rfl

/-- The reference's result and the kernel program's result are one function of the arguments. -/
theorem spec_eq (x : FVec Ideal Cert.ReferenceIdeal.S200000x7 .f32) (ei : IVec Cert.ReferenceIdeal.S2x6400000 32)
    (bt : IVec Cert.ReferenceIdeal.S200000 32)
    (w1 : FVec Ideal Cert.ReferenceIdeal.S7x8 .f32) (b1 : FVec Ideal Cert.ReferenceIdeal.S8 .f32) (r1 : FVec Ideal Cert.ReferenceIdeal.S7x8 .f32)
    (w2 : FVec Ideal Cert.ReferenceIdeal.S8x8 .f32) (b2 : FVec Ideal Cert.ReferenceIdeal.S8 .f32) (r2 : FVec Ideal Cert.ReferenceIdeal.S8x8 .f32)
    (w3 : FVec Ideal Cert.ReferenceIdeal.S8x8 .f32) (b3 : FVec Ideal Cert.ReferenceIdeal.S8 .f32) (r3 : FVec Ideal Cert.ReferenceIdeal.S8x8 .f32)
    (lw : FVec Ideal Cert.ReferenceIdeal.S8x3 .f32) (lb : FVec Ideal Cert.ReferenceIdeal.S3 .f32) :
    R.spec (F := Ideal) x ei bt w1 b1 r1 w2 b2 r2 w3 b3 r3 lw lb = K.spec x ei bt w1 b1 r1 w2 b2 r2 w3 b3 r3 lw lb := by
  unfold R.spec K.spec
  simp only [leaky_dense7, leaky_dense8]
  simp only [dense8_eq, agg7_eq, agg8_eq, pool_eq]

end Cert.GraphConv
-- ==== Proof.Chain.lean ====
/-
  The kernel program's result as a function of its arguments.

  @main is four stretches of host operations with a kernel region after each of the first three. Reading the buffers
  at each boundary back to the launch memory: the first stretch forms the neighbour sums of the node features and
  reshapes the first bias to a row; the first region leaves the first layer of those arrays (Region0); the second
  stretch forms the neighbour sums of that layer; and so on; the last stretch pools the third layer over the graphs and
  applies the last linear map. A region changes its output array only — its input arrays are read through windows and
  every other buffer is untouched — and a host operation changes its result buffer only, so every other read walks back
  unchanged. Composed, the result buffer holds `K.spec` of the fourteen arguments.
-/
import proofs.«142039_j27908697490049_1_alg».proof.Proof.Gen.KernelIdeal.Frame
import proofs.«142039_j27908697490049_1_alg».proof.Proof.Region0
import proofs.«142039_j27908697490049_1_alg».proof.Proof.Region1
import proofs.«142039_j27908697490049_1_alg».proof.Proof.Region2
import proofs.«142039_j27908697490049_1_alg».proof.Proof.Spec
import Idealize.ShloMosaic.Lib.StableHlo.Run
import Idealize.ShloMosaic.Lib.Pipeline.Value

noncomputable section

open Idealize.ShloMosaic Idealize.ShloMosaic.TcCoe Idealize.SL.Sem Idealize.ShloMosaic.ValueIdx
open Idealize.ShloMosaic.StableHlo
open Idealize.ShloMosaic.Pipeline (Dat)

namespace Cert.KernelIdeal.Chain

open Cert.KernelIdeal Cert.KernelIdeal.Gen Cert.GraphConv

variable (m : (ℓ : Loc nD τ sig) → Buf (Elt Ideal) ℓ) (ρ : Dev nD → PrngReg) (c : Dev nD)

/-! ## A region changes its output array only -/

theorem W2_keep (b : Ref sig .tc) (hb : b ≠ main_v15) :
    W2 m ρ c (no_index (Proc.devRef .tc b)) = W1 m ρ c (Proc.devRef .tc b) := by
  by_cases h : ∃ w, Pipeline.arrRef spec0 w = b
  · obtain ⟨w, rfl⟩ := h
    have hin : (cfg0.win w).isOut = false := by
      fin_cases w <;> first | rfl | exact absurd rfl hb
    exact (W2_arr m ρ c w).trans (((dat0 (V1 m ρ) c).arrAt_in w hin _).trans (A_eq0 (V1 m ρ) c w))
  · exact W2_of_ne m ρ c b fun w e => h ⟨w, e⟩

theorem W4_keep (b : Ref sig .tc) (hb : b ≠ main_v27) :
    W4 m ρ c (no_index (Proc.devRef .tc b)) = W3 m ρ c (Proc.devRef .tc b) := by
  by_cases h : ∃ w, Pipeline.arrRef spec1 w = b
  · obtain ⟨w, rfl⟩ := h
    have hin : (cfg1.win w).isOut = false := by
      fin_cases w <;> first | rfl | exact absurd rfl hb
    exact (W4_arr m ρ c w).trans (((dat1 (V3 m ρ) c).arrAt_in w hin _).trans (A_eq1 (V3 m ρ) c w))
  · exact W4_of_ne m ρ c b fun w e => h ⟨w, e⟩

theorem W6_keep (b : Ref sig .tc) (hb : b ≠ main_v39) :
    W6 m ρ c (no_index (Proc.devRef .tc b)) = W5 m ρ c (Proc.devRef .tc b) := by
  by_cases h : ∃ w, Pipeline.arrRef spec2 w = b
  · obtain ⟨w, rfl⟩ := h
    have hin : (cfg2.win w).isOut = false := by
      fin_cases w <;> first | rfl | exact absurd rfl hb
    exact (W6_arr m ρ c w).trans (((dat2 (V5 m ρ) c).arrAt_in w hin _).trans (A_eq2 (V5 m ρ) c w))
  · exact W6_of_ne m ρ c b fun w e => h ⟨w, e⟩

/-! ## and leaves there the layer of the arrays it found -/

theorem W2_out : W2 m ρ c (Proc.devRef .tc main_v15) = Layer0.whole (V1 m ρ) c :=
  (W2_arr m ρ c 5).trans (Layer0.arr_eq (V1 m ρ) c)

theorem W4_out : W4 m ρ c (Proc.devRef .tc main_v27) = Layer1.whole (V3 m ρ) c :=
  (W4_arr m ρ c 5).trans (Layer1.arr_eq (V3 m ρ) c)

theorem W6_out : W6 m ρ c (Proc.devRef .tc main_v39) = Layer2.whole (V5 m ρ) c :=
  (W6_arr m ρ c 5).trans (Layer2.arr_eq (V5 m ρ) c)

/-! ## The arguments as launched, and the three layers of them -/

abbrev aX : FVec Ideal S200000x7 .f32 := m ((c : Thread nD τ).loc main_arg0)
abbrev aEI : IVec S2x6400000 32 := m ((c : Thread nD τ).loc main_arg1)
abbrev aBT : IVec S200000 32 := m ((c : Thread nD τ).loc main_arg2)
abbrev aW1 : FVec Ideal S7x8 .f32 := m ((c : Thread nD τ).loc main_arg3)
abbrev aB1 : FVec Ideal S8 .f32 := m ((c : Thread nD τ).loc main_arg4)
abbrev aR1 : FVec Ideal S7x8 .f32 := m ((c : Thread nD τ).loc main_arg5)
abbrev aW2 : FVec Ideal S8x8 .f32 := m ((c : Thread nD τ).loc main_arg6)
abbrev aB2 : FVec Ideal S8 .f32 := m ((c : Thread nD τ).loc main_arg7)
abbrev aR2 : FVec Ideal S8x8 .f32 := m ((c : Thread nD τ).loc main_arg8)
abbrev aW3 : FVec Ideal S8x8 .f32 := m ((c : Thread nD τ).loc main_arg9)
abbrev aB3 : FVec Ideal S8 .f32 := m ((c : Thread nD τ).loc main_arg10)
abbrev aR3 : FVec Ideal S8x8 .f32 := m ((c : Thread nD τ).loc main_arg11)
abbrev aLW : FVec Ideal S8x3 .f32 := m ((c : Thread nD τ).loc main_arg12)
abbrev aLB : FVec Ideal S3 .f32 := m ((c : Thread nD τ).loc main_arg13)

/-- The first layer of the arguments. -/
def H1 : FVec Ideal S200000x8 .f32 :=
  layerAct (K.agg7 (F := Ideal) (aX m c) (aEI m c)) (aX m c) (aW1 m c) (aR1 m c) (K.bias (aB1 m c))
/-- The second layer. -/
def H2 : FVec Ideal S200000x8 .f32 :=
  layerAct (K.agg8 (F := Ideal) (H1 m c) (aEI m c)) (H1 m c) (aW2 m c) (aR2 m c) (K.bias (aB2 m c))
/-- The third layer. -/
def H3 : FVec Ideal S200000x8 .f32 :=
  layer (K.agg8 (F := Ideal) (H2 m c) (aEI m c)) (H2 m c) (aW3 m c) (aR3 m c) (K.bias (aB3 m c))

/-- Walks a buffer read at any boundary back through the host stretches (an operation's result at its own buffer, any
    other buffer unchanged) and through the regions (any buffer but the output unchanged). -/
macro "walk" : tactic =>
  `(tactic| simp (disch := decide) only [W7, W5, W3, W1, V1, V3, V5, hostOps0, hostOps1, hostOps2, hostOps3,
      after_cons, after_nil,
      nullary_result', unary_result', binary_result', ternary_result', quaternary_result', reshape_result',
      nullary_result_ne', unary_result_ne', binary_result_ne', ternary_result_ne', quaternary_result_ne', reshape_result_ne',
      W2_keep, W4_keep, W6_keep])

/-- A bias vector reshaped to a row, read along the row, is the bias's entries: [8] and [1, 8] have the same row-major
    positions. -/
theorem bias_row (b : FVec Ideal S8 .f32) (h : S8.ShapeCasts S1x8) :
    (fun q : Fin 8 => (shapeCast S1x8 b h : S1x8.Idx → EReal) (ix2 (0 : Fin 1) q)) = K.bias b := by
  funext q
  refine shapeCast_apply b h (ix2 (0 : Fin 1) q) (ix1 q) ?_
  rw [Shape.rowMajor_val_one, Shape.rowMajor_val_two]
  show q.val = 0 * 8 + q.val
  omega

/-! ## The boundaries, one after the other -/

/-- After the first region its output holds the first layer of the arguments. -/
theorem H1_eq : W2 m ρ c (no_index (Proc.devRef .tc main_v15)) = H1 m c := by
  refine (W2_out m ρ c).trans ?_
  have ea : (V1 m ρ c main_v13 : S200000x7.Idx → EReal) = K.agg7 (F := Ideal) (aX m c) (aEI m c) := by walk; rfl
  have ex : (V1 m ρ c main_arg0 : S200000x7.Idx → EReal) = aX m c := by walk
  have ew : (V1 m ρ c main_arg3 : S7x8.Idx → EReal) = aW1 m c := by walk
  have er : (V1 m ρ c main_arg5 : S7x8.Idx → EReal) = aR1 m c := by walk
  have eb : (V1 m ρ c main_v14 : S1x8.Idx → EReal) = shapeCast S1x8 (aB1 m c) shapeCasts_S8_S1x8 := by walk; rfl
  show layerAct (V1 m ρ c main_v13 : S200000x7.Idx → EReal) (V1 m ρ c main_arg0 : S200000x7.Idx → EReal)
    (V1 m ρ c main_arg3 : S7x8.Idx → EReal) (V1 m ρ c main_arg5 : S7x8.Idx → EReal)
    (fun q => (V1 m ρ c main_v14 : S1x8.Idx → EReal) (ix2 (0 : Fin 1) q)) = _
  rw [ea, ex, ew, er, eb, bias_row]
  rfl

/-- After the second region its output holds the second layer. -/
theorem H2_eq : W4 m ρ c (no_index (Proc.devRef .tc main_v27)) = H2 m c := by
  refine (W4_out m ρ c).trans ?_
  have ea : (V3 m ρ c main_v25 : S200000x8.Idx → EReal) = K.agg8 (F := Ideal) (H1 m c) (aEI m c) := by
    walk; simp only [H1_eq]; rfl
  have ex : (V3 m ρ c main_v15 : S200000x8.Idx → EReal) = H1 m c := by walk; exact H1_eq m ρ c
  have ew : (V3 m ρ c main_arg6 : S8x8.Idx → EReal) = aW2 m c := by walk
  have er : (V3 m ρ c main_arg8 : S8x8.Idx → EReal) = aR2 m c := by walk
  have eb : (V3 m ρ c main_v26 : S1x8.Idx → EReal) = shapeCast S1x8 (aB2 m c) shapeCasts_S8_S1x8 := by walk; rfl
  show layerAct (V3 m ρ c main_v25 : S200000x8.Idx → EReal) (V3 m ρ c main_v15 : S200000x8.Idx → EReal)
    (V3 m ρ c main_arg6 : S8x8.Idx → EReal) (V3 m ρ c main_arg8 : S8x8.Idx → EReal)
    (fun q => (V3 m ρ c main_v26 : S1x8.Idx → EReal) (ix2 (0 : Fin 1) q)) = _
  rw [ea, ex, ew, er, eb, bias_row]
  rfl

/-- After the third region its output holds the third layer. -/
theorem H3_eq : W6 m ρ c (no_index (Proc.devRef .tc main_v39)) = H3 m c := by
  refine (W6_out m ρ c).trans ?_
  have ea : (V5 m ρ c main_v37 : S200000x8.Idx → EReal) = K.agg8 (F := Ideal) (H2 m c) (aEI m c) := by
    walk; simp only [H2_eq]; rfl
  have ex : (V5 m ρ c main_v27 : S200000x8.Idx → EReal) = H2 m c := by walk; exact H2_eq m ρ c
  have ew : (V5 m ρ c main_arg9 : S8x8.Idx → EReal) = aW3 m c := by walk
  have er : (V5 m ρ c main_arg11 : S8x8.Idx → EReal) = aR3 m c := by walk
  have eb : (V5 m ρ c main_v38 : S1x8.Idx → EReal) = shapeCast S1x8 (aB3 m c) shapeCasts_S8_S1x8 := by walk; rfl
  show layer (V5 m ρ c main_v37 : S200000x8.Idx → EReal) (V5 m ρ c main_v27 : S200000x8.Idx → EReal)
    (V5 m ρ c main_arg9 : S8x8.Idx → EReal) (V5 m ρ c main_arg11 : S8x8.Idx → EReal)
    (fun q => (V5 m ρ c main_v38 : S1x8.Idx → EReal) (ix2 (0 : Fin 1) q)) = _
  rw [ea, ex, ew, er, eb, bias_row]
  rfl

/-- The result buffer after the last stretch holds the whole function of the arguments. -/
theorem result_eq : W7 m ρ c (Proc.devRef .tc main_v55)
    = K.spec (aX m c) (aEI m c) (aBT m c) (aW1 m c) (aB1 m c) (aR1 m c) (aW2 m c) (aB2 m c) (aR2 m c)
        (aW3 m c) (aB3 m c) (aR3 m c) (aLW m c) (aLB m c) := by
  have e : W7 m ρ c (Proc.devRef .tc main_v55) = K.pool (F := Ideal) (H3 m c) (aBT m c) (aLW m c) (aLB m c) := by
    walk; simp only [H3_eq]; rfl
  exact e

end Cert.KernelIdeal.Chain

end
-- ==== Proof.RefSide.lean ====
/-
  The reference's run ends at its specification.

  The reference program is host operations only; its run leaves the result buffer at the operations' composed term of
  the launched arguments. That term and `R.spec` of the arguments are the same operations in the same order — `R.spec`
  only names the pieces that recur (the edge rows, the neighbour sums, a layer's dense part, the activation, the
  pooling tail) — so the two are equal by unfolding the names.
-/
import proofs.«142039_j27908697490049_1_alg».proof.Proof.RefRun
import proofs.«142039_j27908697490049_1_alg».proof.Proof.Spec

noncomputable section

namespace Cert.ReferenceIdeal.RefValue

open Cert.ReferenceIdeal Cert.GraphConv Idealize.ShloMosaic Idealize.ShloMosaic.TcCoe Idealize.SL.Sem

variable (m : (ℓ : Loc nD τ sig) → Buf (Elt Ideal) ℓ) (c : Dev nD)

set_option maxRecDepth 16384 in
/-- The run's result term is the reference's specification of the launched arguments. -/
theorem res_eq : Cert.ReferenceIdeal.ValueP.res_main_v77 (F := Ideal) m c
    = R.spec (F := Ideal) (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13)) := by
  unfold Cert.ReferenceIdeal.ValueP.res_main_v77
  rfl

end Cert.ReferenceIdeal.RefValue

end
-- ==== Proof.lean ====
/-
  Three graph-convolution layers, a mean pool over the graphs and a linear map: the kernel program against its
  reference, as extended reals.

  The two programs share every host operation — the edge rows, the gather and scatter-add that form the neighbour sums,
  the pooling tail — and differ only in each layer's dense part: the reference takes two whole products and adds a
  broadcast bias between them, the kernel program computes act(a·w + x·r + b) in 50 row blocks inside a kernel region,
  its operands rounded to a shorter format that is the identity on extended reals. Proof/Region0–2 read each region's
  output as one whole-array layer of the arrays the region found; Proof/Chain walks the buffers from the result back to
  the launch memory; Proof/Dense is the one law that joins the two spellings, the regrouping of a three-term sum, which
  holds for all extended reals (no finiteness of the inputs is used); Proof/Spec states both results as one function
  and Proof/RefSide identifies the reference run's term with it. The ideal pass rewrote nothing, so the kernel program's
  idealization is its own text and that conjunct is trivial.
-/
import proofs.«142039_j27908697490049_1_alg».proof.Defs
import proofs.«142039_j27908697490049_1_alg».proof.Proof.Gen.Kernel
import proofs.«142039_j27908697490049_1_alg».proof.Proof.Gen.Kernel.Frame
import proofs.«142039_j27908697490049_1_alg».proof.Proof.Gen.KernelIdeal
import proofs.«142039_j27908697490049_1_alg».proof.Proof.Gen.KernelIdeal.Frame
import proofs.«142039_j27908697490049_1_alg».proof.Proof.Gen.ReferenceIdeal
import proofs.«142039_j27908697490049_1_alg».proof.Proof.Gen.Pre_finite_inputs
import proofs.«142039_j27908697490049_1_alg».proof.Proof.KernelRun
import proofs.«142039_j27908697490049_1_alg».proof.Proof.Chain
import proofs.«142039_j27908697490049_1_alg».proof.Proof.RefSide
import Idealize.ShloMosaic.Adequacy
import Idealize.ShloMosaic.Init

noncomputable section

namespace Cert.Proof

open Idealize.ShloMosaic Idealize.SL.Sem Cert.GraphConv

/-- The word-level kernel program's frame. -/
theorem frame_k : Cert.frame_Kernel := fun m ρ _ => Cert.Kernel.Gen.frame m ρ

/-- The idealized kernel program's frame. -/
theorem frame_ki : Cert.frame_KernelIdeal := fun m ρ _ => Cert.KernelIdeal.Gen.frame m ρ

/-- The reference's frame: its run with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the result buffer at one function of the arguments: the kernel program at `K.spec` (the
    regions as whole-array layers), the reference at `R.spec` (its own operations), and the two agree. -/
theorem algebraic : Cert.algebraic_KernelIdeal_ReferenceIdeal := by
  intro m ρ m' ρ' _ hagree
  refine ⟨fun c => K.spec (Cert.KernelIdeal.Chain.aX m c) (Cert.KernelIdeal.Chain.aEI m c) (Cert.KernelIdeal.Chain.aBT m c)
      (Cert.KernelIdeal.Chain.aW1 m c) (Cert.KernelIdeal.Chain.aB1 m c) (Cert.KernelIdeal.Chain.aR1 m c)
      (Cert.KernelIdeal.Chain.aW2 m c) (Cert.KernelIdeal.Chain.aB2 m c) (Cert.KernelIdeal.Chain.aR2 m c)
      (Cert.KernelIdeal.Chain.aW3 m c) (Cert.KernelIdeal.Chain.aB3 m c) (Cert.KernelIdeal.Chain.aR3 m c)
      (Cert.KernelIdeal.Chain.aLW m c) (Cert.KernelIdeal.Chain.aLB m c), ?_, ?_⟩
  · exact (θ_run Cert.KernelIdeal.defs _ _).mono
      (fun _ h c => ⟨(h c).1.trans (Cert.KernelIdeal.Chain.result_eq m ρ c), (h c).2⟩)
      (Cert.KernelIdeal.GenP.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9, e10, e11, e12, e13⟩ := hagree c
    refine (Cert.ReferenceIdeal.RefValue.res_eq m' c).trans ((spec_eq _ _ _ _ _ _ _ _ _ _ _ _ _ _).trans ?_)
    rw [e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
